-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S256x256 : Shape := ⟨2, ![256, 256]⟩
abbrev S1x256 : Shape := ⟨2, ![1, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S100000x128 .f32) (main_arg1 : IVec S2x600000 32) (main_arg2 : FVec F S256x256 .f32) (main_arg3 : FVec F S1x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  main_v13
-- ==== Kernel.lean ====
abbrev S100000x128 : Shape := ⟨2, ![100000, 128]⟩
abbrev S2x600000 : Shape := ⟨2, ![2, 600000]⟩
abbrev S256x256 : Shape := ⟨2, ![256, 256]⟩
abbrev S1x256 : Shape := ⟨2, ![1, 256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S2000 : Shape := ⟨1, ![2000]⟩

abbrev nBuf : Space → Nat
  | .hbm => 41
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x256, .f32⟩
  | .hbm, ⟨3, _⟩ => ⟨S1x256, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S_, .i32⟩
  | .hbm, ⟨9, _⟩ => ⟨S600000, .i32⟩
  | .hbm, ⟨10, _⟩ => ⟨S600000, .i1⟩
  | .hbm, ⟨11, _⟩ => ⟨S_, .i32⟩
  | .hbm, ⟨12, _⟩ => ⟨S600000, .i32⟩
  | .hbm, ⟨13, _⟩ => ⟨S600000, .i32⟩
  | .hbm, ⟨14, _⟩ => ⟨S600000, .i32⟩
  | .hbm, ⟨15, _⟩ => ⟨S600000x1, .i32⟩
  | .hbm, ⟨16, _⟩ => ⟨S600000x128, .f32⟩
  | .hbm, ⟨17, _⟩ => ⟨S_, .f32⟩
  | .hbm, ⟨18, _⟩ => ⟨S100000x128, .f32⟩
  | .hbm, ⟨19, _⟩ => ⟨S600000x1, .i32⟩
  | .hbm, ⟨20, _⟩ => ⟨S100000x128, .f32⟩
  | .hbm, ⟨21, _⟩ => ⟨S600000, .i1⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S600000, .f32⟩
  | .hbm, ⟨29, _⟩ => ⟨S_, .f32⟩
  | .hbm, ⟨30, _⟩ => ⟨S100000, .f32⟩
  | .hbm, ⟨31, _⟩ => ⟨S600000x1, .i32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000, .f32⟩
  | .hbm, ⟨38, _⟩ => ⟨S100000x1, .f32⟩
  | .hbm, ⟨39, _⟩ => ⟨S256x256, .bf16⟩
  | .hbm, ⟨40, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S256x256, .bf16⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  concatenates_S2000x128_S2000x128_S2000x256_d1 : Shape.Concatenates [S2000x128, S2000x128] S2000x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S256x256 : Shape := ⟨2, ![256, 256]⟩
abbrev S1x256 : Shape := ⟨2, ![1, 256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S256x256, .f32⟩
  | .hbm, ⟨3, _⟩ => ⟨S1x256, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S600000, .i1⟩
  | .hbm, ⟨9, _⟩ => ⟨S600000, .f32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S600000x1, .f32⟩
  | .hbm, ⟨20, _⟩ => ⟨S600000x128, .f32⟩
  | .hbm, ⟨21, _⟩ => ⟨S600000x128, .f32⟩
  | .hbm, ⟨22, _⟩ => ⟨S_, .f32⟩
  | .hbm, ⟨23, _⟩ => ⟨S100000x128, .f32⟩
  | .hbm, ⟨24, _⟩ => ⟨S600000x1, .i32⟩
  | .hbm, ⟨25, _⟩ => ⟨S100000x128, .f32⟩
  | .hbm, ⟨26, _⟩ => ⟨S_, .f32⟩
  | .hbm, ⟨27, _⟩ => ⟨S100000, .f32⟩
  | .hbm, ⟨28, _⟩ => ⟨S600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x256, .f32⟩
  | .hbm, ⟨37, _⟩ => ⟨S100000x256, .f32⟩
  | .hbm, ⟨38, _⟩ => ⟨S100000x256, .f32⟩
  | .hbm, ⟨39, _⟩ => ⟨S100000x256, .f32⟩
  | .hbm, ⟨40, _⟩ => ⟨S100000x256, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x256, .f32⟩
  | .hbm, ⟨49, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_call0_v2 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x256_S256x256_S100000x256_1_0_0_1_n_n_wf : DotDims.WF S100000x256 S256x256 S100000x256 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KernelGrid.lean ====
/-
  The kernel's grid: 50 points, point `t` on row block `t`.

  The three row-blocked inputs (edge sums, edge counts, node features) and the output move together, one block of 2000 rows
  per point, on column block zero; the weights and the bias stay on block zero; every row block below 50 is some point's.
  These relations between the printed index maps are decided once over the 50 points.
-/
import proofs.«152024_j6871947673678_2_alg».proof.Proof.Gen.KernelIdeal.Value
import Idealize.ShloMosaic.Lib.Pipeline.Value
import Idealize.ShloMosaic.Lib.ValueIdx

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

/-- The offset of a store through a whole block is zero on both axes. -/
theorem zero_off : (![0, 0] : Fin 2 → Nat) = fun _ => 0 := funext fun a => by fin_cases a <;> rfl

/-- The printed index maps over the 50 grid points: the three row-blocked inputs move with the output's row block, on
    column block zero; the weights and the bias stay at block zero; the output's row block is below 50. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 49 ∧ win0_5.index t (1 : Fin 2) = 0 :=
  (by decide +kernel : ∀ t : Fin grid0.N, _)

/-- Every row block of the output is some point's. -/
theorem idx_onto : ∀ q : Fin 50, ∃ t : Fin cfg0.N, win0_5.index t = ![q.val, 0] :=
  (by decide +kernel : ∀ q : Fin 50, ∃ t : Fin grid0.N, win0_5.index t = ![q.val, 0])

end Cert.KernelIdeal.Final

end
-- ==== Proof.KernelReadSums.lean ====
/-
  Point `t`'s block of the edge sums, read off the array the region finds: row `p` of the block is row `2000 · (block) + p`.
-/
import proofs.«152024_j6871947673678_2_alg».proof.Proof.KernelGrid

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The block of edge sums at point `t`, row `p`, column `k`, is the array at row `2000 · (block) + p`. -/
theorem read_sums (c : Dev nD) (t : Fin cfg0.N) (p : Fin 2000) (k : Fin 128) (n : Fin 100000)
    (hn : n.val = win0_5.index t (0 : Fin 2) * 2000 + p.val) :
    iblk m c 0 t (ix2 p k) = (V m c main_v26 : S100000x128.Idx → EReal) (ix2 n k) := by
  obtain ⟨e00, e01, -⟩ := idx_facts t
  show V m c main_v26 (((cfg0.win 0).blk t).view.emb (ix2 p k)) = V m c main_v26 (ix2 n k)
  have h : ((cfg0.win 0).blk t).view.emb (ix2 p k) = ix2 n k := by
    funext a; apply Fin.ext
    match a with
    | ⟨0, _⟩ => show win0_0.index t (0 : Fin 2) * 2000 + 1 * p.val = n.val; omega
    | ⟨1, _⟩ => show win0_0.index t (1 : Fin 2) * 128 + 1 * k.val = k.val; omega
  rw [h]

end Cert.KernelIdeal.Final

end
-- ==== Proof.KernelReadCounts.lean ====
/-
  Point `t`'s block of the edge counts, read off the column the region finds: row `p` of the block is row `2000 · (block) + p`.
-/
import proofs.«152024_j6871947673678_2_alg».proof.Proof.KernelGrid

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The block of edge counts at point `t`, row `p`, is the column at row `2000 · (block) + p`. -/
theorem read_counts (c : Dev nD) (t : Fin cfg0.N) (p : Fin 2000) (n : Fin 100000)
    (hn : n.val = win0_5.index t (0 : Fin 2) * 2000 + p.val) :
    iblk m c 1 t (ix2 p (0 : Fin 1)) = (V m c main_v28 : S100000x1.Idx → EReal) (ix2 n (0 : Fin 1)) := by
  obtain ⟨-, -, e10, e11, -⟩ := idx_facts t
  show V m c main_v28 (((cfg0.win 1).blk t).view.emb (ix2 p (0 : Fin 1))) = V m c main_v28 (ix2 n (0 : Fin 1))
  have h : ((cfg0.win 1).blk t).view.emb (ix2 p (0 : Fin 1)) = ix2 n (0 : Fin 1) := by
    funext a; apply Fin.ext
    match a with
    | ⟨0, _⟩ => show win0_1.index t (0 : Fin 2) * 2000 + 1 * p.val = n.val; omega
    | ⟨1, _⟩ => show win0_1.index t (1 : Fin 2) * 1 + 1 * 0 = 0; omega
  rw [h]

end Cert.KernelIdeal.Final

end
-- ==== Proof.KernelReadFeats.lean ====
/-
  Point `t`'s block of the node features, read off the argument array: row `p` of the block is row `2000 · (block) + p`.
-/
import proofs.«152024_j6871947673678_2_alg».proof.Proof.KernelGrid

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The block of node features at point `t`, row `p`, column `k`, is the array at row `2000 · (block) + p`. -/
theorem read_feats (c : Dev nD) (t : Fin cfg0.N) (p : Fin 2000) (k : Fin 128) (n : Fin 100000)
    (hn : n.val = win0_5.index t (0 : Fin 2) * 2000 + p.val) :
    iblk m c 2 t (ix2 p k) = (V m c main_arg0 : S100000x128.Idx → EReal) (ix2 n k) := by
  obtain ⟨-, -, -, -, e20, e21, -⟩ := idx_facts t
  show V m c main_arg0 (((cfg0.win 2).blk t).view.emb (ix2 p k)) = V m c main_arg0 (ix2 n k)
  have h : ((cfg0.win 2).blk t).view.emb (ix2 p k) = ix2 n k := by
    funext a; apply Fin.ext
    match a with
    | ⟨0, _⟩ => show win0_2.index t (0 : Fin 2) * 2000 + 1 * p.val = n.val; omega
    | ⟨1, _⟩ => show win0_2.index t (1 : Fin 2) * 128 + 1 * k.val = k.val; omega
  rw [h]

end Cert.KernelIdeal.Final

end
-- ==== Proof.Spec.lean ====
/-
  The function both programs compute, written once over plain arrays of extended reals.

  Every row `n` of the result depends only on row `n` of an aggregated feature array `A : [N, 128]`, row `n` of the node
  features `X : [N, 128]`, the whole weight matrix `W : [256, 256]` and the bias `B : [1, 256]`:
    c n k   = A n k for k < 128, X n (k - 128) otherwise              (the two halves side by side)
    y n o   = (∑ k, c n k · W k o) + B 0 o                            (the linear layer)
    out n o = y n o / max (sqrt (∑ q, y n q · y n q)) tiny            (the row divided by its clamped Euclidean norm)
  The aggregated array is a mean over incoming edges: a row of sums divided by the clamped count of that row, which one
  program writes as a product with a reciprocal (`meanMul`) and the other as a quotient (`meanDiv`).
  Because a row of the result reads only the same row of `A` and `X`, a block of rows of the result is the same function
  of the corresponding blocks (`head_row`).
-/
import Idealize.ShloMosaic.PureOps.Ideal
import Idealize.ShloMosaic.Lib.ValueIdx

noncomputable section

open scoped BigOperators

namespace Cert.Spec

open Idealize.ShloMosaic Idealize.ShloMosaic.ValueIdx

/-- The single-precision word of `1.0`, read as an extended real. -/
abbrev one : EReal := Ideal.ofBits .f32 0x3F800000#32
/-- The single-precision word nearest `1e-12`, the floor under the norm, read as an extended real. -/
abbrev tiny : EReal := Ideal.ofBits .f32 0x2B8CBCCC#32

variable {N : Nat}

/-- Row `n` of the aggregated features and of the node features side by side: 256 columns. -/
def cat (A X : (⟨2, ![N, 128]⟩ : Shape).Idx → EReal) (n : Fin N) (k : Fin 256) : EReal :=
  if h : k.val < 128 then A (ix2 n ⟨k.val, h⟩) else X (ix2 n ⟨k.val - 128, by omega⟩)

/-- The linear layer on row `n`: the row times the weight matrix, plus the bias. -/
def lin (A X : (⟨2, ![N, 128]⟩ : Shape).Idx → EReal) (W : (⟨2, ![256, 256]⟩ : Shape).Idx → EReal)
    (B : (⟨2, ![1, 256]⟩ : Shape).Idx → EReal) (n : Fin N) (o : Fin 256) : EReal :=
  (∑ k : Fin 256, cat A X n k * W (ix2 k o)) + B (ix2 0 o)

/-- The whole result: each row of the linear layer divided by its Euclidean norm, the norm clamped from below. -/
def head (A X : (⟨2, ![N, 128]⟩ : Shape).Idx → EReal) (W : (⟨2, ![256, 256]⟩ : Shape).Idx → EReal)
    (B : (⟨2, ![1, 256]⟩ : Shape).Idx → EReal) : (⟨2, ![N, 256]⟩ : Shape).Idx → EReal := fun i =>
  Ideal.div (lin A X W B (i 0) (i 1))
    (max (Ideal.sqrt (∑ q : Fin 256, lin A X W B (i 0) q * lin A X W B (i 0) q)) tiny)

/-- The mean as a product: each sum times the reciprocal of its row's count clamped to at least one (the counts a column). -/
def meanMul (S : (⟨2, ![N, 128]⟩ : Shape).Idx → EReal) (C : (⟨2, ![N, 1]⟩ : Shape).Idx → EReal) :
    (⟨2, ![N, 128]⟩ : Shape).Idx → EReal :=
  fun i => S i * Ideal.div one (max (C (ix2 (i 0) 0)) one)

/-- The mean as a quotient: each sum divided by its row's count clamped to at least one (the counts a vector). -/
def meanDiv (S : (⟨2, ![N, 128]⟩ : Shape).Idx → EReal) (C : (⟨1, ![N]⟩ : Shape).Idx → EReal) :
    (⟨2, ![N, 128]⟩ : Shape).Idx → EReal :=
  fun i => Ideal.div (S i) (max (C (ix1 (i 0))) one)

/-- A row of the result reads only the same row of the two feature arrays: if row `p` of `A'`, `X'` is row `n` of `A`, `X`,
    then row `p` of the one result is row `n` of the other. -/
theorem head_row {M : Nat} (A X : (⟨2, ![N, 128]⟩ : Shape).Idx → EReal) (A' X' : (⟨2, ![M, 128]⟩ : Shape).Idx → EReal)
    (W : (⟨2, ![256, 256]⟩ : Shape).Idx → EReal) (B : (⟨2, ![1, 256]⟩ : Shape).Idx → EReal) (n : Fin N) (p : Fin M)
    (hA : ∀ k : Fin 128, A' (ix2 p k) = A (ix2 n k)) (hX : ∀ k : Fin 128, X' (ix2 p k) = X (ix2 n k)) (o : Fin 256) :
    head A' X' W B (ix2 p o) = head A X W B (ix2 n o) := by
  have hc : ∀ k, cat A' X' p k = cat A X n k := by
    intro k; unfold cat; split
    · exact hA _
    · exact hX _
  have hl : ∀ q, lin A' X' W B p q = lin A X W B n q := by
    intro q; unfold lin; simp only [hc]
  show Ideal.div (lin A' X' W B p o) (max (Ideal.sqrt (∑ q : Fin 256, lin A' X' W B p q * lin A' X' W B p q)) tiny)
    = Ideal.div (lin A X W B n o) (max (Ideal.sqrt (∑ q : Fin 256, lin A X W B n q * lin A X W B n q)) tiny)
  simp only [hl]

/-- The same at any two indices: if row `j 0` of `A'`, `X'` is row `i 0` of `A`, `X`, the weights and the bias are the same and the
    columns agree, the one result at `j` is the other at `i`. -/
theorem head_at {M : Nat} (A X : (⟨2, ![N, 128]⟩ : Shape).Idx → EReal) (A' X' : (⟨2, ![M, 128]⟩ : Shape).Idx → EReal)
    (W W' : (⟨2, ![256, 256]⟩ : Shape).Idx → EReal) (B B' : (⟨2, ![1, 256]⟩ : Shape).Idx → EReal)
    (i : (⟨2, ![N, 256]⟩ : Shape).Idx) (j : (⟨2, ![M, 256]⟩ : Shape).Idx)
    (hA : ∀ k : Fin 128, A' (ix2 (j 0) k) = A (ix2 (i 0) k)) (hX : ∀ k : Fin 128, X' (ix2 (j 0) k) = X (ix2 (i 0) k))
    (hW : W' = W) (hB : B' = B) (h1 : (j 1 : Fin 256) = (i 1 : Fin 256)) :
    head A' X' W' B' j = head A X W B i := by
  subst hW hB
  have e := head_row A X A' X' W' B' (i 0) (j 0) hA hX (i 1)
  have ej : j = ix2 (j 0) (i 1) := by
    funext a
    match a with
    | ⟨0, _⟩ => rfl
    | ⟨1, _⟩ => exact h1
  exact (congrArg (head A' X' W' B') ej).trans (e.trans (congrArg (head A X W' B') (eq_ix2 i).symm))

/-- The result is the same function of equal aggregated arrays: two aggregated arrays that agree everywhere give one result. -/
theorem head_congr (A A' X : (⟨2, ![N, 128]⟩ : Shape).Idx → EReal) (W : (⟨2, ![256, 256]⟩ : Shape).Idx → EReal)
    (B : (⟨2, ![1, 256]⟩ : Shape).Idx → EReal) (h : ∀ i, A i = A' i) : head A X W B = head A' X W B := by
  rw [show A = A' from funext h]

end Cert.Spec

end
-- ==== Proof.LibColumns.lean ====
/-
  Two layout operations on a column, read at an index: a vector of length `a` cast to an `a × 1` column,
  and an `a × 1` column broadcast along the rows of an `a × b` array.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRow.lean ====
/-
  The kernel body's one stored value, read at an index.

  On a block of 2000 rows the body computes, from the block of edge sums `v6`, the column of edge counts `v0`, the block of
  node features `v10`, the weight matrix `v13` and the bias `v16`: the mean as a product with the reciprocal of the clamped
  count; the two halves side by side; the matrix product into a zero accumulator, plus the bias; and each row divided by
  the larger of its Euclidean norm and the floor. Read at row `p`, column `o`, that is `Spec.head` of the mean-as-a-product
  on 2000 rows. The body is cut into its three stages (`aggV`, `yV`, `outV`), each read at an index by itself.
-/
import proofs.«152024_j6871947673678_2_alg».proof.Proof.Gen.KernelIdeal.Skeleton
import proofs.«152024_j6871947673678_2_alg».proof.Proof.Spec
import proofs.«152024_j6871947673678_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-- First stage: every edge sum times the reciprocal of its row's count, the count clamped to at least one. -/
def aggV (v0 : Vec Ideal S2000x1 .f32) (v6 : Vec Ideal S2000x128 .f32) : FVec Ideal S2000x128 .f32 :=
  mulf (shapeCast S2000x128 v6 shapeCasts_S2000x128_S2000x128)
    (broadcastTo S2000x128
      (divf (broadcast S2000x1 (Scalar.ofBits (F := Ideal) .f32 0x3F800000#32))
        (maximumf (shapeCast S2000x1 v0 shapeCasts_S2000x1_S2000x1) (broadcast S2000x1 (Scalar.ofBits (F := Ideal) .f32 0x3F800000#32))))
      broadcasts_S2000x1_S2000x128)

/-- Second stage: the means and the node features side by side, times the weight matrix, plus the bias. -/
def yV (a v10 : FVec Ideal S2000x128 .f32) (v13 : Vec Ideal S256x256 .bf16) (v16 : Vec Ideal S1x256 .f32) : FVec Ideal S2000x256 .f32 :=
  addf
    (matmul dot_S2000x256_S256x256_S2000x256_1_0_0_1_n_n none
      (truncf .bf16 (concatenate S2000x256 1 [⟨S2000x128, a⟩, ⟨S2000x128, v10⟩] concatenates_S2000x128_S2000x128_S2000x256_d1 : FVec Ideal S2000x256 .f32) bitsLt_bf16_f32 : FVec Ideal S2000x256 .bf16)
      (shapeCast S256x256 v13 shapeCasts_S256x256_S256x256 : FVec Ideal S256x256 .bf16) (constant (F := Ideal) S2000x256 .f32 0x00000000#32))
    (broadcastTo S2000x256 v16 broadcasts_S1x256_S2000x256)

/-- Third stage: every row divided by the larger of its Euclidean norm and the floor. -/
def outV (y : FVec Ideal S2000x256 .f32) : FVec Ideal S2000x256 .f32 :=
  divf y
    (broadcastTo S2000x256
      (maximumf
        (sqrt (shapeCast S2000x1 (multiReduction (F := Ideal) .add [1] S2000 (mulf y y) 0x00000000#32 reduces_S2000x256_S2000 (.inl rfl) rfl) shapeCasts_S2000_S2000x1))
        (broadcast S2000x1 (Scalar.ofBits (F := Ideal) .f32 0x2B8CBCCC#32)))
      broadcasts_S2000x1_S2000x256)

/-- The two halves side by side at row `p`, column `k`. -/
theorem cat_apply (a v10 : FVec Ideal S2000x128 .f32) (p : Fin 2000) (k : Fin 256) :
    concatenate S2000x256 1 [⟨S2000x128, a⟩, ⟨S2000x128, v10⟩] concatenates_S2000x128_S2000x128_S2000x256_d1 (ix2 p k)
      = Cert.Spec.cat (N := 2000) a v10 p k := by
  unfold Cert.Spec.cat
  split
  · rename_i h
    refine concatenate_pair_apply_left (1 : Fin 2) a v10 concatenates_S2000x128_S2000x128_S2000x256_d1 (ix2 p k) rfl (ix2 p ⟨k.val, h⟩) (fun b => ?_)
    match b with
    | ⟨0, _⟩ => rfl
    | ⟨1, _⟩ => rfl
  · rename_i h
    refine concatenate_pair_apply_right (1 : Fin 2) a v10 concatenates_S2000x128_S2000x128_S2000x256_d1 (ix2 p k) rfl rfl (ix2 p ⟨k.val - 128, by omega⟩) (fun b hb => ?_) ?_
    · match b with
      | ⟨0, _⟩ => rfl
      | ⟨1, _⟩ => exact absurd rfl hb
    · show k.val - 128 + 128 = k.val
      omega

/-- The body's stored value is the three stages in a row. -/
theorem pay_eq (v0 : Vec Ideal S2000x1 .f32) (v6 v10 : Vec Ideal S2000x128 .f32) (v13 : Vec Ideal S256x256 .bf16) (v16 : Vec Ideal S1x256 .f32) :
    k0_pay1 (F := Ideal) v0 v6 v10 v13 v16 = outV (yV (aggV v0 v6) v10 v13 v16) := rfl

/-- The first stage at row `p`, column `k`: the sum there times the reciprocal of row `p`'s clamped count. -/
theorem aggV_apply (v0 : Vec Ideal S2000x1 .f32) (v6 : Vec Ideal S2000x128 .f32) (p : Fin 2000) (k : Fin 128) :
    aggV v0 v6 (ix2 p k) = Cert.Spec.meanMul (N := 2000) v6 v0 (ix2 p k) := by
  unfold aggV
  rw [mulf_apply, shapeCast_self, broadcastTo_a1_ab_apply, divf_apply, broadcast_apply, maximumf_apply, shapeCast_self, broadcast_apply]
  rfl

/-- So the first stage is the mean as a product. -/
theorem aggV_eq (v0 : Vec Ideal S2000x1 .f32) (v6 : Vec Ideal S2000x128 .f32) : aggV v0 v6 = Cert.Spec.meanMul (N := 2000) v6 v0 := by
  funext i
  obtain ⟨p, k, rfl⟩ : ∃ (p : Fin 2000) (k : Fin 128), i = ix2 p k := ⟨i 0, i 1, eq_ix2 i⟩
  exact aggV_apply v0 v6 p k

/-- The matrix product's left operand index at output `(p, o)` and contraction coordinate `k` is `(p, k)`; the right operand's is `(k, o)`. -/
theorem lhsIdx_eq (p : Fin 2000) (o k : Fin 256) :
    dot_S2000x256_S256x256_S2000x256_1_0_0_1_n_n.lhsIdx (ix2 p o) ((contrEquiv1 dot_S2000x256_S256x256_S2000x256_1_0_0_1_n_n 256 rfl rfl).symm k) = ix2 p k := by
  have hk := contrEquiv1_symm_val dot_S2000x256_S256x256_S2000x256_1_0_0_1_n_n 256 rfl rfl k
  funext a; refine Fin.ext ?_
  match a with
  | ⟨0, _⟩ =>
    show (dot_S2000x256_S256x256_S2000x256_1_0_0_1_n_n.lhsIdx (ix2 p o) _ 0).val = p.val
    unfold DotDims.lhsIdx
    rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
    rfl
  | ⟨1, _⟩ => exact (dot_S2000x256_S256x256_S2000x256_1_0_0_1_n_n.lhsIdx_val_of_single rfl (ix2 p o) _).trans hk

theorem rhsIdx_eq (p : Fin 2000) (o k : Fin 256) :
    dot_S2000x256_S256x256_S2000x256_1_0_0_1_n_n.rhsIdx (ix2 p o) ((contrEquiv1 dot_S2000x256_S256x256_S2000x256_1_0_0_1_n_n 256 rfl rfl).symm k) = ix2 k o := by
  have hk := contrEquiv1_symm_val dot_S2000x256_S256x256_S2000x256_1_0_0_1_n_n 256 rfl rfl k
  funext a; refine Fin.ext ?_
  match a with
  | ⟨0, _⟩ => exact (dot_S2000x256_S256x256_S2000x256_1_0_0_1_n_n.rhsIdx_val_of_single rfl (ix2 p o) _).trans hk
  | ⟨1, _⟩ =>
    show (dot_S2000x256_S256x256_S2000x256_1_0_0_1_n_n.rhsIdx (ix2 p o) _ 1).val = o.val
    unfold DotDims.rhsIdx
    rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
    rfl

/-- The second stage at row `p`, column `o`: the linear layer of the specification on row `p`. -/
theorem yV_apply (a v10 : FVec Ideal S2000x128 .f32) (v13 : Vec Ideal S256x256 .bf16) (v16 : Vec Ideal S1x256 .f32) (p : Fin 2000) (o : Fin 256) :
    yV a v10 v13 v16 (ix2 p o) = Cert.Spec.lin (N := 2000) a v10 v13 v16 p o := by
  unfold yV Cert.Spec.lin
  rw [addf_apply, broadcastTo_1b_ab_apply]
  refine congrArg (· + v16 (ix2 (0 : Fin 1) o)) ?_
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  rw [lhsIdx_eq, rhsIdx_eq, truncf_apply, cat_apply, shapeCast_self]

/-- A sum along the 256 columns of a 2000 × 256 block, read at row `p`. -/
theorem rowSum_apply (x : FVec Ideal S2000x256 .f32) (hφ : FKind.Formats .f32) (hacc : (0x00000000#32 : BitVec 32) = FKind.add.neutral .f32 hφ) (p : Fin 2000) :
    multiReduction (F := Ideal) .add [1] S2000 x 0x00000000#32 reduces_S2000x256_S2000 hφ hacc (ix1 p) = ∑ q : Fin 256, x (ix2 p q) := by
  refine (Ideal.multiReduction_add_single x 0x00000000#32 reduces_S2000x256_S2000 hφ hacc (ix1 p)).trans ?_
  refine Finset.sum_congr rfl fun q _ => congrArg x ?_
  funext a
  match a with
  | ⟨0, _⟩ => rfl
  | ⟨1, _⟩ => rfl

/-- The third stage at row `p`, column `o`: the entry divided by the larger of the row's Euclidean norm and the floor. -/
theorem outV_apply (y : FVec Ideal S2000x256 .f32) (p : Fin 2000) (o : Fin 256) :
    outV y (ix2 p o) = Ideal.div (y (ix2 p o)) (max (Ideal.sqrt (∑ q : Fin 256, y (ix2 p q) * y (ix2 p q))) Cert.Spec.tiny) := by
  unfold outV
  rw [divf_apply, broadcastTo_a1_ab_apply, maximumf_apply, broadcast_apply]
  show Ideal.div (y (ix2 p o)) (max (Ideal.sqrt (shapeCast S2000x1 (multiReduction (F := Ideal) .add [1] S2000 (mulf y y) 0x00000000#32 reduces_S2000x256_S2000 (.inl rfl) rfl) shapeCasts_S2000_S2000x1 (ix2 p (0 : Fin 1)))) Cert.Spec.tiny) = _
  rw [shapeCast_a_a1_apply]
  exact congrArg (fun s => Ideal.div (y (ix2 p o)) (max (Ideal.sqrt s) Cert.Spec.tiny)) (rowSum_apply (mulf y y) (.inl rfl) rfl p)

/-- THE BODY'S STORED VALUE: on a block of 2000 rows, the specification's result for the mean taken as a product. -/
theorem pay_head (v0 : Vec Ideal S2000x1 .f32) (v6 v10 : Vec Ideal S2000x128 .f32) (v13 : Vec Ideal S256x256 .bf16) (v16 : Vec Ideal S1x256 .f32) :
    k0_pay1 (F := Ideal) v0 v6 v10 v13 v16 = Cert.Spec.head (N := 2000) (Cert.Spec.meanMul (N := 2000) v6 v0) v10 v13 v16 := by
  rw [pay_eq, aggV_eq]
  funext i
  obtain ⟨p, o, rfl⟩ : ∃ (p : Fin 2000) (o : Fin 256), i = ix2 p o := ⟨i 0, i 1, eq_ix2 i⟩
  rw [outV_apply]
  simp only [yV_apply]
  rfl

end Cert.KernelIdeal.Body

end
-- ==== Proof.KernelFinal.lean ====
/-
  From the blocks to the whole array.

  The kernel runs over 50 grid points; point `t` reads rows `2000 t … 2000 t + 1999` of the edge sums, the edge counts and the
  node features, the whole weight matrix and the whole bias, and writes back rows `2000 t … 2000 t + 1999` of the result.
  Since a row of `Spec.head` reads only the same row of its feature arrays, what point `t` writes back is block `t` of ONE
  function of the whole arrays (`result`); the 50 blocks tile the 100000 rows, the block holding row `r` being `r / 2000`;
  so the array ends holding `result` everywhere.
-/
import proofs.«152024_j6871947673678_2_alg».proof.Proof.KernelGrid
import proofs.«152024_j6871947673678_2_alg».proof.Proof.KernelReadSums
import proofs.«152024_j6871947673678_2_alg».proof.Proof.KernelReadCounts
import proofs.«152024_j6871947673678_2_alg».proof.Proof.KernelReadFeats
import proofs.«152024_j6871947673678_2_alg».proof.Proof.KernelRow
import Idealize.ShloMosaic.Lib.Pipeline.Value

set_option maxRecDepth 16384

noncomputable section

namespace Cert.KernelIdeal.Final

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as one function of the five arrays the region finds: the edge sums, the edge counts, the node
    features, the weights and the bias. -/
def result (c : Dev nD) : S100000x256.Idx → EReal :=
  Cert.Spec.head (N := 100000)
    (Cert.Spec.meanMul (N := 100000) (V m c main_v26 : S100000x128.Idx → EReal) (V m c main_v28 : S100000x1.Idx → EReal))
    (V m c main_arg0 : S100000x128.Idx → EReal) (V m c main_v29 : S256x256.Idx → EReal) (V m c main_arg3 : S1x256.Idx → EReal)

/-- Every point's block of the weights is the whole matrix. -/
theorem read_weights (c : Dev nD) (t : Fin cfg0.N) : iblk m c 3 t = (V m c main_v29 : S256x256.Idx → EReal) := by
  obtain ⟨-, -, -, -, -, -, e30, e31, -⟩ := idx_facts t
  funext y
  show V m c main_v29 (((cfg0.win 3).blk t).view.emb y) = V m c main_v29 y
  have h : ((cfg0.win 3).blk t).view.emb y = y := by
    funext a; apply Fin.ext
    match a with
    | ⟨0, _⟩ => show win0_3.index t (0 : Fin 2) * 256 + 1 * (y 0).val = (y 0).val; omega
    | ⟨1, _⟩ => show win0_3.index t (1 : Fin 2) * 256 + 1 * (y 1).val = (y 1).val; omega
  rw [h]

/-- Every point's block of the bias is the whole row. -/
theorem read_bias (c : Dev nD) (t : Fin cfg0.N) : iblk m c 4 t = (V m c main_arg3 : S1x256.Idx → EReal) := by
  obtain ⟨-, -, -, -, -, -, -, -, e40, e41, -⟩ := idx_facts t
  funext y
  show V m c main_arg3 (((cfg0.win 4).blk t).view.emb y) = V m c main_arg3 y
  have h : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 256 + 1 * (y 1).val = (y 1).val; omega
  rw [h]

/-- Rows `2000 T … 2000 T + 1999` of the result: if a block of sums, counts and features is rows `2000 T + p` of the arrays,
    the specification's result on the block at `y` is its result on the arrays at the index `2000 T` rows further down. -/
theorem block_head_eq (S : S100000x128.Idx → EReal) (C : S100000x1.Idx → EReal) (X : S100000x128.Idx → EReal)
    (W : S256x256.Idx → EReal) (B : S1x256.Idx → EReal)
    (s : S2000x128.Idx → EReal) (cc : S2000x1.Idx → EReal) (x : S2000x128.Idx → EReal) (T : Nat)
    (hs : ∀ (p : Fin 2000) (k : Fin 128) (n : Fin 100000), n.val = T * 2000 + p.val → s (ix2 p k) = S (ix2 n k))
    (hc : ∀ (p : Fin 2000) (n : Fin 100000), n.val = T * 2000 + p.val → cc (ix2 p (0 : Fin 1)) = C (ix2 n (0 : Fin 1)))
    (hx : ∀ (p : Fin 2000) (k : Fin 128) (n : Fin 100000), n.val = T * 2000 + p.val → x (ix2 p k) = X (ix2 n k))
    (y : S2000x256.Idx) (i : S100000x256.Idx) (hi0 : (i 0).val = T * 2000 + (y 0).val) (hi1 : (y 1).val = (i 1).val) :
    Cert.Spec.head (N := 2000) (Cert.Spec.meanMul (N := 2000) s cc) x W B y
      = Cert.Spec.head (N := 100000) (Cert.Spec.meanMul (N := 100000) S C) X W B i := by
  refine Cert.Spec.head_at _ _ _ _ _ _ _ _ i y (fun k => ?_) (fun k => hx (y 0) k (i 0) hi0) rfl rfl (Fin.ext hi1)
  show s (ix2 (y 0) k) * Ideal.div Cert.Spec.one (max (cc (ix2 (y 0) (0 : Fin 1))) Cert.Spec.one)
    = S (ix2 (i 0) k) * Ideal.div Cert.Spec.one (max (C (ix2 (i 0) (0 : Fin 1))) Cert.Spec.one)
  rw [hs (y 0) k (i 0) hi0, hc (y 0) (i 0) hi0]

/-- WHAT POINT `t` WRITES BACK is block `t` of `result`. -/
theorem flushed_eq (c : Dev nD) (t : Fin cfg0.N) :
    (dats m 0 c).flushed 5 t = ((cfg0.win 5).blk t).view.read (Elt Ideal) (result m c) := by
  rw [Value.flushed5 m c t]
  unfold out0_5
  rw [View.canon_unit_zero zero_off]
  simp only [View.ld_unit_zero (S := S2000x1) zero_off, View.ld_unit_zero (S := S2000x128) zero_off,
    View.ld_unit_zero (S := S256x256) zero_off, View.ld_unit_zero (S := S1x256) zero_off]
  rw [Body.pay_head (iblk m c 1 t) (iblk m c 0 t) (iblk m c 2 t) (iblk m c 3 t) (iblk m c 4 t), read_weights m c t, read_bias m c t]
  obtain ⟨-, -, -, -, -, -, -, -, -, -, e5b, e51⟩ := idx_facts t
  have key : ∀ (y : S2000x256.Idx) (i : S100000x256.Idx), (i 0).val = win0_5.index t (0 : Fin 2) * 2000 + (y 0).val → (y 1).val = (i 1).val →
      Cert.Spec.head (N := 2000) (Cert.Spec.meanMul (N := 2000) (iblk m c 0 t) (iblk m c 1 t)) (iblk m c 2 t)
          (V m c main_v29 : S256x256.Idx → EReal) (V m c main_arg3 : S1x256.Idx → EReal) y
        = result m c i := fun y i hi0 hi1 =>
    block_head_eq (V m c main_v26 : S100000x128.Idx → EReal) (V m c main_v28 : S100000x1.Idx → EReal)
      (V m c main_arg0 : S100000x128.Idx → EReal) (V m c main_v29 : S256x256.Idx → EReal) (V m c main_arg3 : S1x256.Idx → EReal)
      (iblk m c 0 t) (iblk m c 1 t) (iblk m c 2 t) (win0_5.index t (0 : Fin 2))
      (fun p k n hn => read_sums m c t p k n hn) (fun p n hn => read_counts m c t p n hn) (fun p k n hn => read_feats m c t p k n hn)
      y i hi0 hi1
  generalize Cert.Spec.head (N := 2000) (Cert.Spec.meanMul (N := 2000) (iblk m c 0 t) (iblk m c 1 t)) (iblk m c 2 t)
      (V m c main_v29 : S256x256.Idx → EReal) (V m c main_arg3 : S1x256.Idx → EReal) = H at key ⊢
  generalize result m c = R at key ⊢
  funext y
  show H ((cfg0.win 5).xinj (grid0.coords t) y) = R (((cfg0.win 5).blk t).view.emb y)
  refine key _ _ ?_ ?_
  · show win0_5.index t (0 : Fin 2) * 2000 + 1 * (y 0).val = win0_5.index t (0 : Fin 2) * 2000 + (y 0).val; omega
  · show (y 1).val = win0_5.index t (1 : Fin 2) * 256 + 1 * (y 1).val; omega

/-- An index of the array is in point `t`'s block iff each coordinate is in the block's range on its axis. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v30).slice (win0_5.rect t)).set ↔ _
  rw [View.set_slice_whole, Rect.mem_set_unit]
  exact Iff.rfl

/-- The blocks tile the array: row `r` is in the block of point `r / 2000`. -/
theorem cover (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE ARRAY after the run is `result` of the arrays the region finds. -/
theorem final (c : Dev nD) : (dats m 0 c).arrAt 5 cfg0.N = result m c :=
  (dats m 0 c).arrAt_eq_of_cover 5 (result m c) (fun t _ => flushed_eq m c t) cover

/-- The kernel's run re-posted: the result array at `result`, the arguments unchanged. -/
theorem run : θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.JoinDefs.lean ====
/-
  The kernel's host arithmetic before its one region, written over the reference's own stages.

  With `row` and `col` the two rows of the edge array, `g` the node features gathered at `col`, and `idx` the scatter index
  (`row` as a column), the reference sums `g · [row ≠ col]` and counts `[row ≠ col]` per node. The kernel's program instead sums
  all of `g` per node (`sumsAll`), counts all edges per node (`degree`) and the self-loops per node (`selfCount`), and corrects:
  `kSums = sumsAll − selfCount · x`, `kCounts = degree − selfCount` — a self-loop at node `n` gathers node `n`'s own row.
-/
import proofs.«152024_j6871947673678_2_alg».proof.Proof.Gen.ReferenceIdeal.Read

noncomputable section

namespace Cert.Join

open Cert.ReferenceIdeal Cert.ReferenceIdeal.Gen Cert.ReferenceIdeal.Read Idealize.ShloMosaic

/-- One per edge that is a self-loop (`row = col`), zero per other edge. -/
def selfLoop (x1 : (⟨S2x600000, .i32⟩ : BufTy).Contents (Elt Ideal)) : (⟨S600000, .f32⟩ : BufTy).Contents (Elt Ideal) :=
  uitofp (F := Ideal) .f32 (cmpi .eq (val_main_v1 (F := Ideal) x1) (val_main_v3 (F := Ideal) x1))

/-- Per node, the sum of the gathered rows over ALL edges that end there. -/
def sumsAll (x0 : (⟨S100000x128, .f32⟩ : BufTy).Contents (Elt Ideal)) (x1 : (⟨S2x600000, .i32⟩ : BufTy).Contents (Elt Ideal)) :
    (⟨S100000x128, .f32⟩ : BufTy).Contents (Elt Ideal) :=
  Host.scatterAdd (F := Ideal) (φ := .f32) scatter_S100000x128_S600000x1_S600000x128_1_0_0_1 (val_main_v16 (F := Ideal)) (val_main_v17 (F := Ideal) x1) (val_main_v12 (F := Ideal) x0 x1)

/-- Per node, the number of edges that end there. -/
def degree (x1 : (⟨S2x600000, .i32⟩ : BufTy).Contents (Elt Ideal)) : (⟨S100000, .f32⟩ : BufTy).Contents (Elt Ideal) :=
  Host.scatterAdd (F := Ideal) (φ := .f32) scatter_S100000_S600000x1_S600000_n_0_0_1 (val_main_v19 (F := Ideal)) (val_main_v20 (F := Ideal) x1)
    (broadcastInDim S600000 ![] bcast_S_S600000 (constant (F := Ideal) S_ .f32 0x3F800000#32) : (⟨S600000, .f32⟩ : BufTy).Contents (Elt Ideal))

/-- Per node, the number of self-loops there. -/
def selfCount (x1 : (⟨S2x600000, .i32⟩ : BufTy).Contents (Elt Ideal)) : (⟨S100000, .f32⟩ : BufTy).Contents (Elt Ideal) :=
  Host.scatterAdd (F := Ideal) (φ := .f32) scatter_S100000_S600000x1_S600000_n_0_0_1 (val_main_v19 (F := Ideal)) (val_main_v20 (F := Ideal) x1) (selfLoop x1)

/-- The corrected sums: all gathered rows, less the node's own row once per self-loop. -/
def kSums (x0 : (⟨S100000x128, .f32⟩ : BufTy).Contents (Elt Ideal)) (x1 : (⟨S2x600000, .i32⟩ : BufTy).Contents (Elt Ideal)) :
    (⟨S100000x128, .f32⟩ : BufTy).Contents (Elt Ideal) :=
  subf (F := Ideal) (φ := .f32) (sumsAll x0 x1)
    (mulf (F := Ideal) (φ := .f32) (broadcastInDim S100000x128 ![0, 1] bcast_S100000x1_S100000x128_0_1
        (broadcastInDim S100000x1 ![0] bcast_S100000_S100000x1_0 (selfCount x1) : (⟨S100000x1, .f32⟩ : BufTy).Contents (Elt Ideal))
        : (⟨S100000x128, .f32⟩ : BufTy).Contents (Elt Ideal)) x0)

/-- The corrected counts, as a column: the degree less the self-loops. -/
def kCounts (x1 : (⟨S2x600000, .i32⟩ : BufTy).Contents (Elt Ideal)) : (⟨S100000x1, .f32⟩ : BufTy).Contents (Elt Ideal) :=
  broadcastInDim S100000x1 ![0] bcast_S100000_S100000x1_0 (subf (F := Ideal) (φ := .f32) (degree x1) (selfCount x1) : (⟨S100000, .f32⟩ : BufTy).Contents (Elt Ideal))

end Cert.Join

end
-- ==== Proof.KernelHost.lean ====
/-
  The arrays the kernel's region finds, as functions of the program's arguments.

  Before its one region the kernel's program computes on the host: the gathered rows summed per node over all incoming edges,
  the per-node degree and self-loop count, the corrected sums `sumsAll − selfCount · x` (the region's first operand), the
  corrected counts `degree − selfCount` as a column (its second operand), and the weights in a narrower float format (its
  fourth operand), which on extended reals are the weights themselves. The node features and the bias reach the region as
  launched. So the result array is `Spec.head` of the mean-as-a-product of the corrected sums and counts.
-/
import proofs.«152024_j6871947673678_2_alg».proof.Proof.KernelFinal
import proofs.«152024_j6871947673678_2_alg».proof.Proof.JoinDefs
import Idealize.ShloMosaic.Lib.StableHlo.Run

set_option maxRecDepth 16384

noncomputable section

namespace Cert.KernelIdeal.HostPart

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 2000000 in
/-- The region's first operand is the corrected sums of the arguments. -/
theorem sums_eq (c : Dev nD) :
    (V m c main_v26 : S100000x128.Idx → EReal)
      = Cert.Join.kSums (m ((c : Thread nD τ).loc main_arg0)) (m ((c : Thread nD τ).loc main_arg1)) := by
  dsimp only [Gen.V, Gen.hostOps0]
  after_results_simp <;> rfl

set_option maxHeartbeats 2000000 in
/-- The region's second operand is the corrected counts of the arguments, as a column. -/
theorem counts_eq (c : Dev nD) :
    (V m c main_v28 : S100000x1.Idx → EReal) = Cert.Join.kCounts (m ((c : Thread nD τ).loc main_arg1)) := by
  dsimp only [Gen.V, Gen.hostOps0]
  after_results_simp <;> rfl

/-- The region's fourth operand is the weight argument: a change of float format is the identity on extended reals. -/
theorem weights_eq (c : Dev nD) :
    (V m c main_v29 : S256x256.Idx → EReal) = (m ((c : Thread nD τ).loc main_arg2) : S256x256.Idx → EReal) := by
  dsimp only [Gen.V, Gen.hostOps0]
  after_results
  rfl

/-- THE RESULT ARRAY as a function of the program's four arguments. -/
theorem result_eq (c : Dev nD) :
    Cert.KernelIdeal.Final.result m c
      = Cert.Spec.head (N := 100000)
          (Cert.Spec.meanMul (N := 100000)
            (Cert.Join.kSums (m ((c : Thread nD τ).loc main_arg0)) (m ((c : Thread nD τ).loc main_arg1)))
            (Cert.Join.kCounts (m ((c : Thread nD τ).loc main_arg1))))
          (m ((c : Thread nD τ).loc main_arg0) : S100000x128.Idx → EReal)
          (m ((c : Thread nD τ).loc main_arg2) : S256x256.Idx → EReal)
          (m ((c : Thread nD τ).loc main_arg3) : S1x256.Idx → EReal) := by
  unfold Cert.KernelIdeal.Final.result
  rw [sums_eq m c, counts_eq m c, weights_eq m c, V_main_arg0 m c, V_main_arg3 m c]

end Cert.KernelIdeal.HostPart

end
-- ==== Proof.RefHead.lean ====
/-
  The reference program after its two scatters, read index by index.

  With S the per-node feature sums and C the per-node counts (both left as the program's own terms), the remaining
  operations are: the quotient S n k / max (C n) 1, the divisor broadcast along each row; that array and the node
  features side by side, 256 columns; the product with the weight matrix plus the bias; each row's sum of squares, its
  square root, the clamp from below, and the final quotient. Each step is read at a pair of coordinates and identified
  with the corresponding piece of the specification.
-/
import proofs.«152024_j6871947673678_2_alg».proof.Proof.Gen.ReferenceIdeal.Read
import proofs.«152024_j6871947673678_2_alg».proof.Proof.Spec

noncomputable section

open scoped BigOperators

namespace Cert.ReferenceIdeal.RefValue

open Cert.ReferenceIdeal Cert.ReferenceIdeal.Read Idealize.ShloMosaic Idealize.ShloMosaic.ValueIdx

/-- The aggregated array at (n, k): the sum there divided by row n's count clamped to at least one. The divisor is
    a column broadcast along the row, so it is read at row n whatever the column. -/
theorem agg_at (x0 : (⟨S100000x128, .f32⟩ : BufTy).Contents (Elt Ideal)) (x1 : (⟨S2x600000, .i32⟩ : BufTy).Contents (Elt Ideal))
    (n : Fin 100000) (k : Fin 128) :
    val_main_v26 (F := Ideal) x0 x1 (ix2 n k)
      = Cert.Spec.meanDiv (val_main_v18 (F := Ideal) x0 x1) (val_main_v21 (F := Ideal) x1) (ix2 n k) := by
  have e : idx_main_v24 (idx_main_v25 (ix2 n k)) = ix1 n :=
    funext fun a => Fin.ext (by match a with | ⟨0, _⟩ => rfl)
  rw [val_main_v26_apply, val_main_v25_apply, val_main_v24_apply, val_main_v23_apply, val_main_v22_apply,
    val_main_cst_2_apply, e]
  simp only [Ideal.hostDivf_def, Ideal.maximumf_def, Ideal.ofBits_def]
  rfl

/-- The concatenation at (n, k): a column below 128 falls in the aggregated array at the same column, a column from
    128 on falls in the node features at the column less 128. -/
theorem cat_at (x0 : (⟨S100000x128, .f32⟩ : BufTy).Contents (Elt Ideal)) (x1 : (⟨S2x600000, .i32⟩ : BufTy).Contents (Elt Ideal))
    (n : Fin 100000) (k : Fin 256) :
    val_main_v27 (F := Ideal) x0 x1 (ix2 n k)
      = Cert.Spec.cat (Cert.Spec.meanDiv (val_main_v18 (F := Ideal) x0 x1) (val_main_v21 (F := Ideal) x1)) x0 n k := by
  unfold val_main_v27 Cert.Spec.cat
  split
  · next h =>
    refine (concatenate_pair_apply_left (1 : Fin S100000x256.rank) (val_main_v26 (F := Ideal) x0 x1) x0 _ (ix2 n k) rfl
      (ix2 n ⟨k.val, h⟩) (fun b => by match b with | ⟨0, _⟩ => rfl | ⟨1, _⟩ => rfl)).trans ?_
    exact agg_at x0 x1 n ⟨k.val, h⟩
  · next h =>
    exact concatenate_pair_apply_right (1 : Fin S100000x256.rank) (val_main_v26 (F := Ideal) x0 x1) x0 _ (ix2 n k) rfl rfl
      (ix2 n ⟨k.val - 128, by omega⟩)
      (fun b hb => by match b with | ⟨0, _⟩ => rfl | ⟨1, _⟩ => exact absurd rfl hb)
      (by show k.val - 128 + 128 = k.val; omega)

/-- The linear layer at (n, o): the contraction runs along row n of the concatenation and column o of the weight
    matrix, and the bias is a single row broadcast down the rows. -/
theorem lin_at (x0 : (⟨S100000x128, .f32⟩ : BufTy).Contents (Elt Ideal)) (x1 : (⟨S2x600000, .i32⟩ : BufTy).Contents (Elt Ideal))
    (x2 : (⟨S256x256, .f32⟩ : BufTy).Contents (Elt Ideal)) (x3 : (⟨S1x256, .f32⟩ : BufTy).Contents (Elt Ideal))
    (n : Fin 100000) (o : Fin 256) :
    val_main_v30 (F := Ideal) x0 x1 x2 x3 (ix2 n o)
      = Cert.Spec.lin (Cert.Spec.meanDiv (val_main_v18 (F := Ideal) x0 x1) (val_main_v21 (F := Ideal) x1)) x0 x2 x3 n o := by
  have el : ∀ k : Fin 256, lidx_main_v28 (ix2 n o) k = ix2 n k := fun k =>
    funext fun a => Fin.ext (by match a with | ⟨0, _⟩ => rfl | ⟨1, _⟩ => rfl)
  have er : ∀ k : Fin 256, ridx_main_v28 (ix2 n o) k = ix2 k o := fun k =>
    funext fun a => Fin.ext (by match a with | ⟨0, _⟩ => rfl | ⟨1, _⟩ => rfl)
  have eb : idx_main_v29 (ix2 n o) = ix2 (0 : Fin 1) o :=
    funext fun a => Fin.ext (by match a with | ⟨0, _⟩ => rfl | ⟨1, _⟩ => rfl)
  rw [val_main_v30_apply, val_main_v28_apply, val_main_v29_apply, eb]
  simp only [el, er, cat_at, Ideal.addf_def]
  rfl

/-- The whole reference after the scatters is the specification's head of the quotient form of the mean. The row's
    sum of squares starts from the zero word, which is the real number zero and drops out of the sum. -/
theorem ref_eq_head (x0 : (⟨S100000x128, .f32⟩ : BufTy).Contents (Elt Ideal)) (x1 : (⟨S2x600000, .i32⟩ : BufTy).Contents (Elt Ideal))
    (x2 : (⟨S256x256, .f32⟩ : BufTy).Contents (Elt Ideal)) (x3 : (⟨S1x256, .f32⟩ : BufTy).Contents (Elt Ideal)) :
    Cert.ReferenceIdeal.Read.val_main_v35 (F := Ideal) x0 x1 x2 x3
      = Cert.Spec.head (N := 100000)
          (Cert.Spec.meanDiv (Cert.ReferenceIdeal.Read.val_main_v18 (F := Ideal) x0 x1)
            (Cert.ReferenceIdeal.Read.val_main_v21 (F := Ideal) x1)) x0 x2 x3 := by
  funext i
  obtain ⟨n, o, rfl⟩ : ∃ (n : Fin 100000) (o : Fin 256), i = ix2 n o := ⟨i 0, i 1, eq_ix2 i⟩
  have e1 : idx_main_call0_v2 (idx_main_v34 (ix2 n o)) = ix1 n :=
    funext fun a => Fin.ext (by match a with | ⟨0, _⟩ => rfl)
  have e2 : ∀ k : Fin 256, idx_main_call0_v1 (ix1 n) k = ix2 n k := fun k =>
    funext fun a => Fin.ext (by match a with | ⟨0, _⟩ => rfl | ⟨1, _⟩ => rfl)
  rw [val_main_v35_apply, val_main_v34_apply, val_main_v33_apply, val_main_v32_apply, val_main_cst_3_apply,
    val_main_v31_apply, val_main_call0_v2_apply, e1, val_main_call0_v1_apply, val_main_call0_cst_apply]
  simp only [e2, val_main_call0_v0_apply, lin_at, Ideal.hostDivf_def, Ideal.maximumf_def, Ideal.hostUnary_sqrt_def,
    Ideal.mulf_def, Ideal.ofBits_def, Ideal.ofBits_zero_f32, zero_add]
  rfl

end Cert.ReferenceIdeal.RefValue

end
-- ==== Proof.LibRowScatter.lean ====
/-
  ROW SCATTER AND ROW GATHER, READ AT AN INDEX.

  A scatter that adds the rows of an [E, D] array into an [N, D] array at row numbers read off an [E, 1] array of
  integers, its rank-1 variant adding an [E] array into an [N] array, and the gather of rows of an [N, D] array at
  an [E, 1] array of row numbers. For each the dimension numbers are evaluated once, for all extents: the start index
  of update (or result) row e is the signed value idx[e, 0], the window coordinate is the column, so an update lands
  in row n exactly when idx[e, 0] = n, and the accumulating scatter at the extended reals is the operand plus the sum,
  over the edges e whose index is n, of the update.
-/
import Idealize.ShloMosaic.Lib.ValueIdx

noncomputable section

open scoped BigOperators

namespace Cert.Lib.RowScatter

open Idealize.ShloMosaic Idealize.ShloMosaic.ValueIdx

/-! ## Where an update lands, for any dimension numbers -/

/-- An update with index j lands at operand index i exactly when, on every operand axis, its signed start plus
    its window coordinate is i's coordinate there. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hs a
      have hf := congrFun (Option.some.inj hs) a
      have hv : (d.start j idx a + (d.window j a : Int)).toNat = (i a).val := congrArg Fin.val hf
      have := h a
      omega
    · intro hs
      congr 1
      funext a
      apply Fin.ext
      have := hs a
      show (d.start j idx a + (d.window j a : Int)).toNat = (i a).val
      omega
  · rename_i h
    constructor
    · intro hs; exact absurd hs (by simp)
    · intro hs
      exfalso; apply h
      intro a
      have h1 := hs a
      have h2 := (i a).isLt
      constructor <;> omega

/-! ## Rows of an [E, D] array added into an [N, D] array -/

/-- The dimension numbers of the row scatter: operand [N, D], scatter indices [E, 1], updates [E, D]; the updates'
    axis 1 is the window axis, the operand's axis 0 is inserted and is the axis the one index component names. -/
abbrev rowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N E D w : Nat} (wf : ScatterDims.WF ⟨2, ![N, D]⟩ ⟨2, ![E, 1]⟩ ⟨2, ![E, D]⟩ [1] [0] [0] 1)

/-- On the row axis the start of update (e, k) is the signed value of idx[e, 0]. -/
theorem rows_start_zero (idx : IVec ⟨2, ![E, 1]⟩ w) (e : Fin E) (k : Fin D) :
    (rowsDims N E D wf).start (ix2 e k) idx 0 = (idx (ix2 e 0)).toInt := by
  unfold ScatterDims.start
  rw [dif_pos (show (0 : Fin 2) ∈ (rowsDims N E D wf).scatterDimsToOperandDims from List.mem_singleton.mpr rfl)]
  have hsi : (rowsDims N E D wf).siIdx (ix2 e k) ⟨List.idxOf (0 : Fin 2) (rowsDims N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the start is 0: the index has no component for it. -/
theorem rows_start_one (idx : IVec ⟨2, ![E, 1]⟩ w) (e : Fin E) (k : Fin D) :
    (rowsDims N E D wf).start (ix2 e k) idx 1 = 0 := by
  unfold ScatterDims.start
  rw [dif_neg (show (1 : Fin 2) ∉ (rowsDims N E D wf).scatterDimsToOperandDims from
    fun h => absurd (List.mem_singleton.mp h) (by decide : ¬ ((1 : Fin 2) = 0)))]

/-- On the row axis, an inserted one, the window coordinate is 0. -/
theorem rows_window_zero (e : Fin E) (k : Fin D) : (rowsDims N E D wf).window (ix2 e k) 0 = 0 := by
  unfold ScatterDims.window
  have hk : (rowsDims N E D wf).sKept = [1] := rfl
  rw [dif_neg (show (0 : Fin 2) ∉ (rowsDims N E D wf).sKept from
    fun h => absurd (List.mem_singleton.mp (hk ▸ h)) (by decide : ¬ ((0 : Fin 2) = 1)))]

/-- On the column axis the window coordinate of update (e, k) is k. -/
theorem rows_window_one (e : Fin E) (k : Fin D) : (rowsDims N E D wf).window (ix2 e k) 1 = k.val := by
  unfold ScatterDims.window
  have hk : (rowsDims N E D wf).sKept = [1] := rfl
  rw [dif_pos (show (1 : Fin 2) ∈ (rowsDims N E D wf).sKept from hk ▸ List.mem_singleton.mpr rfl)]
  rfl

/-- WHERE A ROW UPDATE LANDS: update (e, k) lands at (n, k') exactly when idx[e, 0], read signed, is n and the
    columns agree. An index that is negative or at least N lands nowhere. -/
theorem rows_resultIdx?_eq_some_iff (idx : IVec ⟨2, ![E, 1]⟩ w) (e : Fin E) (k : Fin D) (n : Fin N) (k' : Fin D) :
    (rowsDims N E D wf).resultIdx? (ix2 e k) idx = some (ix2 n k') ↔
      (idx (ix2 e 0)).toInt = (n.val : Int) ∧ k = k' := by
  rw [resultIdx?_eq_some_iff]
  constructor
  · intro h
    have h0 : (rowsDims N E D wf).start (ix2 e k) idx 0 + ((rowsDims N E D wf).window (ix2 e k) 0 : Int)
        = (n.val : Int) := h 0
    have h1 : (rowsDims N E D wf).start (ix2 e k) idx 1 + ((rowsDims N E D wf).window (ix2 e k) 1 : Int)
        = (k'.val : Int) := h 1
    rw [rows_start_zero, rows_window_zero] at h0
    rw [rows_start_one, rows_window_one] at h1
    exact ⟨by omega, Fin.ext (by omega)⟩
  · rintro ⟨h0, rfl⟩ a
    match a with
    | ⟨0, _⟩ =>
      show (rowsDims N E D wf).start (ix2 e k) idx 0 + ((rowsDims N E D wf).window (ix2 e k) 0 : Int) = (n.val : Int)
      rw [rows_start_zero, rows_window_zero]; omega
    | ⟨1, _⟩ =>
      show (rowsDims N E D wf).start (ix2 e k) idx 1 + ((rowsDims N E D wf).window (ix2 e k) 1 : Int) = (k.val : Int)
      rw [rows_start_one, rows_window_one]; omega

/-- THE ROW SCATTER-ADD AT (n, k), at the extended reals: the operand's element plus the sum, over the edges e whose
    index idx[e, 0] is n, of the update's element (e, k). -/
theorem hostScatterAdd_rows_apply (x : (⟨2, ![N, D]⟩ : Shape).Idx → EReal) (idx : IVec ⟨2, ![E, 1]⟩ w)
    (upd : (⟨2, ![E, D]⟩ : Shape).Idx → EReal) (n : Fin N) (k : Fin D) :
    Ideal.hostScatterAdd (rowsDims N E D wf) x idx upd (ix2 n k) =
      x (ix2 n k) + ∑ e ∈ Finset.univ.filter (fun e : Fin E => (idx (ix2 e 0)).toInt = (n.val : Int)),
        upd (ix2 e k) := by
  unfold Ideal.hostScatterAdd
  congr 1
  have key : ∀ j : (⟨2, ![E, D]⟩ : Shape).Idx, (rowsDims N E D wf).resultIdx? j idx = some (ix2 n k) →
      (idx (ix2 ⟨(j 0).val, idx2_lt0 j⟩ 0)).toInt = (n.val : Int) ∧ ix2 ⟨(j 0).val, idx2_lt0 j⟩ k = j := by
    intro j hj
    rw [eq_ix2 j] at hj
    have h := (rows_resultIdx?_eq_some_iff wf idx _ _ n k).mp hj
    refine ⟨h.1, ?_⟩
    have hk : j 1 = k := h.2
    rw [← hk]
    exact (eq_ix2 j).symm
  refine Finset.sum_nbij' (fun j => (⟨(j 0).val, idx2_lt0 j⟩ : Fin E)) (fun e => ix2 e k) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rows_resultIdx?_eq_some_iff wf idx e k n k).mpr ⟨(Finset.mem_filter.mp he).2, rfl⟩⟩
  · intro j hj
    exact (key j (Finset.mem_filter.mp hj).2).2
  · intro e _; rfl
  · intro j hj
    exact congrArg upd (key j (Finset.mem_filter.mp hj).2).2.symm

end Rows

/-! ## An [E] array added into an [N] array -/

/-- The dimension numbers of the rank-1 scatter: operand [N], scatter indices [E, 1], updates [E]; the updates have
    no window axis, the operand's one axis is inserted and is the axis the one index component names. -/
abbrev cellsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Cells
variable {N E w : Nat} (wf : ScatterDims.WF ⟨1, ![N]⟩ ⟨2, ![E, 1]⟩ ⟨1, ![E]⟩ [] [0] [0] 1)

/-- The start of update e is the signed value of idx[e, 0]. -/
theorem cells_start_zero (idx : IVec ⟨2, ![E, 1]⟩ w) (e : Fin E) :
    (cellsDims N E wf).start (ix1 e) idx 0 = (idx (ix2 e 0)).toInt := by
  unfold ScatterDims.start
  rw [dif_pos (show (0 : Fin 1) ∈ (cellsDims N E wf).scatterDimsToOperandDims from List.mem_singleton.mpr rfl)]
  have hsi : (cellsDims N E wf).siIdx (ix1 e) ⟨List.idxOf (0 : Fin 1) (cellsDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: the window coordinate is 0. -/
theorem cells_window_zero (e : Fin E) : (cellsDims N E wf).window (ix1 e) 0 = 0 := by
  unfold ScatterDims.window
  have hk : (cellsDims N E wf).sKept = [] := rfl
  rw [dif_neg (show (0 : Fin 1) ∉ (cellsDims N E wf).sKept from fun h => List.not_mem_nil (hk ▸ h))]

/-- WHERE A RANK-1 UPDATE LANDS: update e lands at n exactly when idx[e, 0], read signed, is n. An index that is
    negative or at least N lands nowhere. -/
theorem cells_resultIdx?_eq_some_iff (idx : IVec ⟨2, ![E, 1]⟩ w) (e : Fin E) (n : Fin N) :
    (cellsDims N E wf).resultIdx? (ix1 e) idx = some (ix1 n) ↔ (idx (ix2 e 0)).toInt = (n.val : Int) := by
  rw [resultIdx?_eq_some_iff]
  constructor
  · intro h
    have h0 : (cellsDims N E wf).start (ix1 e) idx 0 + ((cellsDims N E wf).window (ix1 e) 0 : Int)
        = (n.val : Int) := h 0
    rw [cells_start_zero, cells_window_zero] at h0
    omega
  · intro h0 a
    match a with
    | ⟨0, _⟩ =>
      show (cellsDims N E wf).start (ix1 e) idx 0 + ((cellsDims N E wf).window (ix1 e) 0 : Int) = (n.val : Int)
      rw [cells_start_zero, cells_window_zero]; omega

/-- THE RANK-1 SCATTER-ADD AT n, at the extended reals: the operand's element plus the sum, over the edges e whose
    index idx[e, 0] is n, of the update's element e. -/
theorem hostScatterAdd_cells_apply (x : (⟨1, ![N]⟩ : Shape).Idx → EReal) (idx : IVec ⟨2, ![E, 1]⟩ w)
    (upd : (⟨1, ![E]⟩ : Shape).Idx → EReal) (n : Fin N) :
    Ideal.hostScatterAdd (cellsDims N E wf) x idx upd (ix1 n) =
      x (ix1 n) + ∑ e ∈ Finset.univ.filter (fun e : Fin E => (idx (ix2 e 0)).toInt = (n.val : Int)),
        upd (ix1 e) := by
  unfold Ideal.hostScatterAdd
  congr 1
  have hlt : ∀ j : (⟨1, ![E]⟩ : Shape).Idx, (j 0).val < E := fun j => (j 0).isLt
  have key : ∀ j : (⟨1, ![E]⟩ : Shape).Idx, ix1 (⟨(j 0).val, hlt j⟩ : Fin E) = j := fun j => (eq_ix1 j).symm
  refine Finset.sum_nbij' (fun j => (⟨(j 0).val, hlt j⟩ : Fin E)) (fun e => ix1 e) ?_ ?_ ?_ ?_ ?_
  · intro j hj
    have hj2 := (Finset.mem_filter.mp hj).2
    rw [← key j] at hj2
    exact Finset.mem_filter.mpr ⟨Finset.mem_univ _, (cells_resultIdx?_eq_some_iff wf idx _ n).mp hj2⟩
  · intro e he
    exact Finset.mem_filter.mpr ⟨Finset.mem_univ _,
      (cells_resultIdx?_eq_some_iff wf idx e n).mpr (Finset.mem_filter.mp he).2⟩
  · intro j _; exact key j
  · intro e _; rfl
  · intro j _; exact congrArg upd (key j).symm

end Cells

/-! ## Rows of an [N, D] array gathered at an [E, 1] array of row numbers -/

/-- The dimension numbers of the row gather: operand [N, D], start indices [E, 1], result [E, D]; the result's axis 1
    is the offset axis, the operand's axis 0 is collapsed and is the axis the one index component names; a slice is
    one whole row. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

section RowGather
variable {α : Type} {N E D w : Nat}
  (wf : GatherDims.WF ⟨2, ![N, D]⟩ ⟨2, ![E, 1]⟩ ⟨2, ![E, D]⟩ [1] [0] [] [0] [] 1 ![1, D])

/-- THE ROW GATHER READ AT (e, k): the operand at row idx[e, 0], read signed and clamped into [0, N − 1], and
    column k. -/
theorem gather_rows_apply (hN : 0 < N) (x : (⟨2, ![N, D]⟩ : Shape).Idx → α) (idx : IVec ⟨2, ![E, 1]⟩ w)
    (e : Fin E) (k : Fin D) :
    Host.gather (rowGatherDims N E D wf) x idx (ix2 e k) =
      x (ix2 ⟨min (idx (ix2 e 0)).toInt.toNat (N - 1), by omega⟩ k) := by
  unfold Host.gather
  congr 1
  funext a
  refine Fin.ext ?_
  match a with
  | ⟨0, _⟩ =>
    show (rowGatherDims N E D wf).start (ix2 e k) idx 0 + (rowGatherDims N E D wf).batchCoord (ix2 e k) 0
      + (rowGatherDims N E D wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e k) ⟨List.idxOf (0 : Fin 2) (rowGatherDims N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E D wf).start (ix2 e k) idx 1 + (rowGatherDims N E D wf).batchCoord (ix2 e k) 1
      + (rowGatherDims N E D wf).offCoord (ix2 e k) 1 = k.val
    have h10 : (1 : Fin 2) ∉ (rowGatherDims N E D wf).startIndexMap :=
      fun h => absurd (List.mem_singleton.mp h) (by decide : ¬ ((1 : Fin 2) = 0))
    have h1c : (1 : Fin 2) ∉ (rowGatherDims N E D wf).collapsedSliceDims :=
      fun h => absurd (List.mem_singleton.mp h) (by decide : ¬ ((1 : Fin 2) = 0))
    rw [GatherDims.batchCoord_eq_zero _ _ _ List.not_mem_nil]
    unfold GatherDims.start GatherDims.offCoord
    rw [dif_neg h10, dif_pos ((GatherDims.mem_sKept _ _).mpr ⟨h1c, List.not_mem_nil⟩)]
    simp only [Nat.add_zero, Nat.zero_add]
    rfl

/-- THE ROW GATHER AT AN IN-RANGE INDEX: when idx[e, 0], read signed, is the row number n < N, element (e, k) of the
    result is the operand's element (n, k). -/
theorem gather_rows_apply_of_mem (x : (⟨2, ![N, D]⟩ : Shape).Idx → α) (idx : IVec ⟨2, ![E, 1]⟩ w)
    (e : Fin E) (k : Fin D) (n : Fin N) (h : (idx (ix2 e 0)).toInt = (n.val : Int)) :
    Host.gather (rowGatherDims N E D wf) x idx (ix2 e k) = x (ix2 n k) := by
  have hn := n.isLt
  rw [gather_rows_apply wf (by omega) x idx e k]
  have hrow : (⟨min (idx (ix2 e 0)).toInt.toNat (N - 1), by omega⟩ : Fin N) = n := Fin.ext (by
    show min (idx (ix2 e 0)).toInt.toNat (N - 1) = n.val
    rw [h]; omega)
  rw [hrow]

end RowGather

end Cert.Lib.RowScatter

end
-- ==== Proof.MeanLaw.lean ====
/-
  THE MEAN OVER THE EDGES THAT ARE NOT SELF-LOOPS, COMPUTED TWO WAYS.

  Over a finite set S of edges, some of them self-loops (the predicate L), with a feature g e on every edge that is a
  fixed real x on every self-loop: the masked computation sums g e over the edges that are not self-loops and divides by
  their number (at least 1); the corrected computation sums g e over ALL of S, takes away (number of self-loops) · x,
  and multiplies by the reciprocal of (number of edges − number of self-loops) (at least 1). The two agree at the
  extended reals: g may take infinite values off the self-loops, and only x is asked to be real, through
  (a + r) − r = a for a real r and any extended real a.
-/
import Idealize.ShloMosaic.PureOps.Ideal

noncomputable section

open scoped BigOperators

namespace Cert.MeanLaw

open Idealize.ShloMosaic

/-- A finite sum whose terms all equal the real c is (number of terms) · c, a real. -/
theorem sum_eq_card_mul {ι : Type*} (s : Finset ι) (f : ι → EReal) (c : ℝ) (h : ∀ e ∈ s, f e = (c : EReal)) :
    ∑ e ∈ s, f e = (((s.card : ℝ) * c : ℝ) : EReal) := by
  rw [Finset.sum_congr rfl h, Finset.sum_const, ← EReal.coe_nsmul, nsmul_eq_mul]

/-- THE LAW OVER ANY FINITE SET S OF EDGES: with selfv the indicator of the self-loops, validv the indicator of the
    others and g = x (a real) on the self-loops of S,
    (∑ g − (∑ selfv) · x) · (1 / max (∑ 1 − ∑ selfv) 1) = (∑ g · validv) / max (∑ validv) 1,
    every sum over S. -/
theorem mean_law_finset {ι : Type*} (S : Finset ι) (L : ι → Prop) [DecidablePred L] (g selfv validv : ι → EReal) (x : ℝ)
    (hg : ∀ e ∈ S, L e → g e = (x : EReal))
    (hself : ∀ e, selfv e = if L e then 1 else 0) (hvalid : ∀ e, validv e = if L e then 0 else 1) :
    ((0 + ∑ e ∈ S, g e) - (0 + ∑ e ∈ S, selfv e) * (x : EReal))
        * Ideal.div 1 (max ((0 + ∑ e ∈ S, (1 : EReal)) - (0 + ∑ e ∈ S, selfv e)) 1)
      = Ideal.div (0 + ∑ e ∈ S, g e * validv e) (max (0 + ∑ e ∈ S, validv e) 1) := by
  -- A: the self-loops of S; B: the other edges of S; every sum over S splits over A and B
  have memA : ∀ e ∈ S.filter L, e ∈ S ∧ L e := fun e he => Finset.mem_filter.mp he
  have memB : ∀ e ∈ S.filter (fun e => ¬ L e), e ∈ S ∧ ¬ L e := fun e he => Finset.mem_filter.mp he
  have split : ∀ f : ι → EReal,
      ∑ e ∈ S, f e = ∑ e ∈ S.filter L, f e + ∑ e ∈ S.filter (fun e => ¬ L e), f e := fun f =>
    (Finset.sum_filter_add_sum_filter_not S L f).symm
  -- the three counts, as reals
  have hselfS : ∑ e ∈ S, selfv e = (((S.filter L).card : ℝ) : EReal) := by
    rw [split, sum_eq_card_mul _ selfv 1 (fun e he => by rw [hself, if_pos (memA e he).2, EReal.coe_one]),
      sum_eq_card_mul _ selfv 0 (fun e he => by rw [hself, if_neg (memB e he).2, EReal.coe_zero]), ← EReal.coe_add]
    congr 1; ring
  have hvalidS : ∑ e ∈ S, validv e = (((S.filter (fun e => ¬ L e)).card : ℝ) : EReal) := by
    rw [split, sum_eq_card_mul _ validv 0 (fun e he => by rw [hvalid, if_pos (memA e he).2, EReal.coe_zero]),
      sum_eq_card_mul _ validv 1 (fun e he => by rw [hvalid, if_neg (memB e he).2, EReal.coe_one]), ← EReal.coe_add]
    congr 1; ring
  have honeS : ∑ e ∈ S, (1 : EReal)
      = ((((S.filter L).card : ℝ) + ((S.filter (fun e => ¬ L e)).card : ℝ) : ℝ) : EReal) := by
    rw [split, sum_eq_card_mul _ _ 1 (fun _ _ => EReal.coe_one.symm),
      sum_eq_card_mul _ _ 1 (fun _ _ => EReal.coe_one.symm), ← EReal.coe_add]
    congr 1; ring
  -- the two feature sums: the self-loops contribute (their number) · x to the first and nothing to the second
  have hgS : ∑ e ∈ S, g e
      = ∑ e ∈ S.filter (fun e => ¬ L e), g e + ((((S.filter L).card : ℝ) * x : ℝ) : EReal) := by
    rw [split, sum_eq_card_mul _ g x (fun e he => hg e (memA e he).1 (memA e he).2), add_comm]
  have hgvS : ∑ e ∈ S, g e * validv e = ∑ e ∈ S.filter (fun e => ¬ L e), g e := by
    rw [split, Finset.sum_eq_zero (fun e he => by rw [hvalid, if_pos (memA e he).2, mul_zero]), zero_add]
    exact Finset.sum_congr rfl (fun e he => by rw [hvalid, if_neg (memB e he).2, mul_one])
  -- the common denominator y = max (number of edges that are not self-loops) 1, a real that is not 0
  have hy : max (((S.filter (fun e => ¬ L e)).card : ℝ)) 1 ≠ 0 :=
    ne_of_gt (lt_of_lt_of_le one_pos (le_max_right _ _))
  have hmax : max ((((S.filter (fun e => ¬ L e)).card : ℝ)) : EReal) 1
      = ((max (((S.filter (fun e => ¬ L e)).card : ℝ)) 1 : ℝ) : EReal) := by
    rw [← EReal.coe_one]; exact (EReal.coe_strictMono.monotone.map_max).symm
  have numL : (0 + ∑ e ∈ S, g e) - (0 + ∑ e ∈ S, selfv e) * (x : EReal)
      = ∑ e ∈ S.filter (fun e => ¬ L e), g e := by
    rw [zero_add, zero_add, hgS, hselfS, ← EReal.coe_mul, EReal.add_sub_cancel_right]
  have denL : max ((0 + ∑ e ∈ S, (1 : EReal)) - (0 + ∑ e ∈ S, selfv e)) 1
      = ((max (((S.filter (fun e => ¬ L e)).card : ℝ)) 1 : ℝ) : EReal) := by
    rw [zero_add, zero_add, honeS, hselfS, ← EReal.coe_sub, add_sub_cancel_left, hmax]
  have denR : max (0 + ∑ e ∈ S, validv e) 1
      = ((max (((S.filter (fun e => ¬ L e)).card : ℝ)) 1 : ℝ) : EReal) := by
    rw [zero_add, hvalidS, hmax]
  rw [numL, denL, denR, zero_add, hgvS, Ideal.div_coe hy, Ideal.div_coe hy, one_mul]

/-- THE LAW FOR THE EDGES e : Fin E THAT SATISFY P (the edges ending at one node): the corrected mean is the masked
    mean, when g = x (a real) on the self-loops among them. -/
theorem mean_law {E : ℕ} (P L : Fin E → Prop) [DecidablePred P] [DecidablePred L] (g selfv validv : Fin E → EReal) (x : ℝ)
    (hg : ∀ e, P e → L e → g e = (x : EReal))
    (hself : ∀ e, selfv e = if L e then 1 else 0) (hvalid : ∀ e, validv e = if L e then 0 else 1) :
    ((0 + ∑ e ∈ Finset.univ.filter P, g e) - (0 + ∑ e ∈ Finset.univ.filter P, selfv e) * (x : EReal))
        * Ideal.div 1 (max ((0 + ∑ e ∈ Finset.univ.filter P, (1 : EReal)) - (0 + ∑ e ∈ Finset.univ.filter P, selfv e)) 1)
      = Ideal.div (0 + ∑ e ∈ Finset.univ.filter P, g e * validv e) (max (0 + ∑ e ∈ Finset.univ.filter P, validv e) 1) :=
  mean_law_finset (Finset.univ.filter P) L g selfv validv x
    (fun e he hL => hg e (Finset.mem_filter.mp he).2 hL) hself hvalid

end Cert.MeanLaw

end
-- ==== Proof.JoinEdges.lean ====
/-
  The edge-level facts of the join: what the reference's per-edge stages are at one edge e.

  With row and col the two rows of the edge array: the scatter index at e is row e; the self-loop indicator is one
  exactly when row e = col e and the validity factor is one exactly when they differ; the factor broadcast along the
  feature axis is the same at every column; and an edge whose row is a node number n and whose column equals its row
  gathers node n's own features, because a nonnegative column number is not shifted by the wrap-around of negative
  indices and lies inside the array.
-/
import proofs.«152024_j6871947673678_2_alg».proof.Proof.JoinDefs
import proofs.«152024_j6871947673678_2_alg».proof.Proof.LibRowScatter
import Idealize.ShloMosaic.Lib.ValueIdx
import Idealize.ShloMosaic.Lib.Affine

noncomputable section

namespace Cert.Join

open Cert.ReferenceIdeal Cert.ReferenceIdeal.Gen Cert.ReferenceIdeal.Read Idealize.ShloMosaic Idealize.ShloMosaic.ValueIdx

/-- A one-bit word is zero or one. -/
private theorem bit_cases : ∀ b : BitVec 1, b = 0#1 ∨ b = 1#1 := by decide

/-- A one-bit word read as an unsigned number: one when the bit is set, zero otherwise. -/
private theorem uitofp_bit (b : BitVec 1) :
    FloatOps.uitofp (F := Ideal) .f32 b = if b = 1#1 then (1 : EReal) else 0 := by
  show ((b.toNat : ℝ) : EReal) = _
  rcases bit_cases b with rfl | rfl <;> simp

/-- The feature scatter's index at edge e is the edge's row number. -/
theorem idx_at (x1 : (⟨S2x600000, .i32⟩ : BufTy).Contents (Elt Ideal)) (e : Fin 600000) :
    val_main_v17 (F := Ideal) x1 (ix2 e (0 : Fin 1)) = val_main_v1 (F := Ideal) x1 (ix1 e) := by
  rw [val_main_v17_apply]
  exact congrArg _ (funext fun a => Fin.ext (by match a with | ⟨0, _⟩ => rfl))

/-- The count scatter's index at edge e is the edge's row number too. -/
theorem idx_at_count (x1 : (⟨S2x600000, .i32⟩ : BufTy).Contents (Elt Ideal)) (e : Fin 600000) :
    val_main_v20 (F := Ideal) x1 (ix2 e (0 : Fin 1)) = val_main_v1 (F := Ideal) x1 (ix1 e) := by
  rw [val_main_v20_apply]
  exact congrArg _ (funext fun a => Fin.ext (by match a with | ⟨0, _⟩ => rfl))

/-- The self-loop indicator at edge e: one when the row equals the column, zero otherwise. -/
theorem selfLoop_at (x1 : (⟨S2x600000, .i32⟩ : BufTy).Contents (Elt Ideal)) (e : Fin 600000) :
    selfLoop x1 (ix1 e)
      = if val_main_v1 (F := Ideal) x1 (ix1 e) = val_main_v3 (F := Ideal) x1 (ix1 e) then (1 : EReal) else 0 := by
  show FloatOps.uitofp (F := Ideal) .f32
      (IntOp.cmpi .eq (val_main_v1 (F := Ideal) x1 (ix1 e)) (val_main_v3 (F := Ideal) x1 (ix1 e))) = _
  rw [uitofp_bit]
  simp only [IntOp.cmpi_eq]

/-- The validity factor at edge e: zero when the row equals the column, one otherwise. -/
theorem valid_at (x1 : (⟨S2x600000, .i32⟩ : BufTy).Contents (Elt Ideal)) (e : Fin 600000) :
    val_main_v5 (F := Ideal) x1 (ix1 e)
      = if val_main_v1 (F := Ideal) x1 (ix1 e) = val_main_v3 (F := Ideal) x1 (ix1 e) then (0 : EReal) else 1 := by
  show FloatOps.uitofp (F := Ideal) .f32
      (IntOp.cmpi .ne (val_main_v1 (F := Ideal) x1 (ix1 e)) (val_main_v3 (F := Ideal) x1 (ix1 e))) = _
  rw [uitofp_bit]
  simp only [IntOp.cmpi_ne, ne_eq, ite_not]

/-- The validity factor broadcast along the feature axis is, at every column, the factor of the edge. -/
theorem validB_at (x1 : (⟨S2x600000, .i32⟩ : BufTy).Contents (Elt Ideal)) (e : Fin 600000) (k : Fin 128) :
    val_main_v14 (F := Ideal) x1 (ix2 e k) = val_main_v5 (F := Ideal) x1 (ix1 e) := by
  rw [val_main_v14_apply, val_main_v13_apply]
  exact congrArg _ (funext fun a => Fin.ext (by match a with | ⟨0, _⟩ => rfl))

/-- The gather's index at a self-loop whose row is the node number n: the column, equal to the row, is nonnegative,
    so the wrap-around of negative indices leaves it alone, and read as a signed number it is n. -/
theorem gatherIdx_self (x1 : (⟨S2x600000, .i32⟩ : BufTy).Contents (Elt Ideal)) (e : Fin 600000) (n : Fin 100000)
    (hP : (val_main_v1 (F := Ideal) x1 (ix1 e)).toInt = (n.val : Int))
    (hL : val_main_v1 (F := Ideal) x1 (ix1 e) = val_main_v3 (F := Ideal) x1 (ix1 e)) :
    (val_main_v11 (F := Ideal) x1 (ix2 e (0 : Fin 1))).toInt = (n.val : Int) := by
  have e0 : idx_main_v11 (ix2 e (0 : Fin 1)) = ix1 e :=
    funext fun a => Fin.ext (by match a with | ⟨0, _⟩ => rfl)
  rw [val_main_v11_apply, e0, val_main_v10_apply, val_main_v7_apply, val_main_v6_apply, val_main_c_apply, ← hL]
  have hslt : IntOp.cmpi .slt (val_main_v1 (F := Ideal) x1 (ix1 e)) 0#32 = 0#1 := by
    rcases bit_cases (IntOp.cmpi .slt (val_main_v1 (F := Ideal) x1 (ix1 e)) 0#32) with h | h
    · exact h
    · exfalso
      rw [IntOp.cmpi_slt, hP, show (0#32 : BitVec 32).toInt = 0 from by decide] at h
      omega
  rw [hslt, select_zero]
  exact hP

/-- A self-loop at node n gathers node n's own features. -/
theorem gather_self (x0 : (⟨S100000x128, .f32⟩ : BufTy).Contents (Elt Ideal)) (x1 : (⟨S2x600000, .i32⟩ : BufTy).Contents (Elt Ideal))
    (e : Fin 600000) (k : Fin 128) (n : Fin 100000)
    (hP : (val_main_v1 (F := Ideal) x1 (ix1 e)).toInt = (n.val : Int))
    (hL : val_main_v1 (F := Ideal) x1 (ix1 e) = val_main_v3 (F := Ideal) x1 (ix1 e)) :
    val_main_v12 (F := Ideal) x0 x1 (ix2 e k) = x0 (ix2 n k) := by
  show Host.gather (Cert.Lib.RowScatter.rowGatherDims 100000 600000 128
      gather_S100000x128_S600000x1_S600000x128_1_0_n_n_0_1_1128_wf) x0 (val_main_v11 (F := Ideal) x1) (ix2 e k) = x0 (ix2 n k)
  exact Cert.Lib.RowScatter.gather_rows_apply_of_mem _ x0 (val_main_v11 (F := Ideal) x1) e k n (gatherIdx_self x1 e n hP hL)

end Cert.Join

end
-- ==== Proof.Join.lean ====
/-
  THE TWO HOST COMPUTATIONS OF THE MEAN AGREE.

  For node n and feature column k, with row e and col e the two ends of edge e: both programs take the mean, over the
  edges e with row e = n that are not self-loops (row e ≠ col e), of the feature row gathered at col e. One masks the
  self-loops out of the sum and of the count and divides. The other sums and counts over all edges with row e = n, then
  takes (number of self-loops at n) · x[n, k] off the sum and the number of self-loops off the count, and multiplies by the
  reciprocal: a self-loop at n has col e = n and gathers node n's own row. Each scatter is read at a node as a sum
  over the edges whose index is that node, and the two forms meet in the law of the mean over a finite set of edges.
-/
import proofs.«152024_j6871947673678_2_alg».proof.Proof.Gen.ReferenceIdeal.Read
import proofs.«152024_j6871947673678_2_alg».proof.Proof.Spec
import proofs.«152024_j6871947673678_2_alg».proof.Proof.LibRowScatter
import proofs.«152024_j6871947673678_2_alg».proof.Proof.MeanLaw
import proofs.«152024_j6871947673678_2_alg».proof.Proof.JoinDefs
import proofs.«152024_j6871947673678_2_alg».proof.Proof.JoinEdges
import Idealize.ShloMosaic.Lib.ValueIdx
import Idealize.ShloMosaic.Lib.Pipeline.Value
import Idealize.ShloMosaic.PureOps.Ideal.Laws

noncomputable section

open scoped BigOperators

namespace Cert.Join

open Cert.ReferenceIdeal Cert.ReferenceIdeal.Gen Cert.ReferenceIdeal.Read Idealize.ShloMosaic Idealize.ShloMosaic.ValueIdx
open Cert.Lib.RowScatter

/-- The single-precision word of 1.0 is the number 1. -/
theorem one_eq : Cert.Spec.one = 1 := IdealRules.sign_bit.ideal_onePat .f32

section Stages
variable (x0 : (⟨S100000x128, .f32⟩ : BufTy).Contents (Elt Ideal)) (x1 : (⟨S2x600000, .i32⟩ : BufTy).Contents (Elt Ideal))

/-! ## Constants and broadcasts read at an index -/

/-- The array of zeros the row scatters start from. -/
theorem zero16 (i : S100000x128.Idx) : (val_main_v16 (F := Ideal) i : EReal) = 0 := by
  rw [val_main_v16_apply, val_main_cst_apply]
  exact Ideal.ofBits_zero_f32

/-- The array of zeros the rank-1 scatters start from. -/
theorem zero19 (i : S100000.Idx) : (val_main_v19 (F := Ideal) i : EReal) = 0 := by
  rw [val_main_v19_apply, val_main_cst_1_apply]
  exact Ideal.ofBits_zero_f32

/-- The array of ones over the edges. -/
theorem ones_at (e : Fin 600000) :
    (broadcastInDim S600000 ![] bcast_S_S600000 (constant (F := Ideal) S_ .f32 0x3F800000#32)
      : (⟨S600000, .f32⟩ : BufTy).Contents (Elt Ideal)) (ix1 e) = (1 : EReal) :=
  (broadcastInDim_apply _ bcast_S_S600000 _ (ix1 e) (fun a => a.elim0) (fun a => a.elim0)).trans
    (IdealRules.sign_bit.ideal_onePat .f32)

/-- A vector over the nodes made a column, read at (n, 0). -/
theorem bcast_col_at (y : (⟨S100000, .f32⟩ : BufTy).Contents (Elt Ideal)) (n : Fin 100000) :
    (broadcastInDim S100000x1 ![0] bcast_S100000_S100000x1_0 y : (⟨S100000x1, .f32⟩ : BufTy).Contents (Elt Ideal)) (ix2 n 0)
      = y (ix1 n) :=
  broadcastInDim_apply _ bcast_S100000_S100000x1_0 y (ix2 n 0) (ix1 n) (fun a => match a with
    | ⟨0, _⟩ => by show n.val = if (100000 : Nat) = 1 then 0 else n.val; rw [if_neg (by decide)])

/-- A column over the nodes repeated along the feature columns, read at (n, k). -/
theorem bcast_rows_at (y : (⟨S100000x1, .f32⟩ : BufTy).Contents (Elt Ideal)) (n : Fin 100000) (k : Fin 128) :
    (broadcastInDim S100000x128 ![0, 1] bcast_S100000x1_S100000x128_0_1 y
      : (⟨S100000x128, .f32⟩ : BufTy).Contents (Elt Ideal)) (ix2 n k) = y (ix2 n 0) :=
  broadcastInDim_apply _ bcast_S100000x1_S100000x128_0_1 y (ix2 n k) (ix2 n 0) (fun a => match a with
    | ⟨0, _⟩ => by show n.val = if (100000 : Nat) = 1 then 0 else n.val; rw [if_neg (by decide)]
    | ⟨1, _⟩ => by show 0 = if (1 : Nat) = 1 then 0 else k.val; rw [if_pos rfl])

/-- The two scatter indices of the program are one array: the first ends of the edges, as a column. -/
theorem v20_eq : val_main_v20 (F := Ideal) x1 = val_main_v17 (F := Ideal) x1 := rfl

/-! ## The scatters read at a node: sums over the edges whose first end is the node -/

/-- The program's row-scatter record is the row scatter's dimension numbers at the program's extents. -/
theorem rows_record : scatter_S100000x128_S600000x1_S600000x128_1_0_0_1
    = rowsDims 100000 600000 128 scatter_S100000x128_S600000x1_S600000x128_1_0_0_1_wf := by
  unfold scatter_S100000x128_S600000x1_S600000x128_1_0_0_1
  rfl

/-- The program's rank-1 scatter record is the rank-1 scatter's dimension numbers at the program's extents. -/
theorem cells_record : scatter_S100000_S600000x1_S600000_n_0_0_1
    = cellsDims 100000 600000 scatter_S100000_S600000x1_S600000_n_0_0_1_wf := by
  unfold scatter_S100000_S600000x1_S600000_n_0_0_1
  rfl

/-- A row scatter-add from the zeros, at (n, k): the sum, over the edges whose index is n, of the update's
    element (e, k). -/
theorem rows_scatter_at (upd : (⟨S600000x128, .f32⟩ : BufTy).Contents (Elt Ideal)) (n : Fin 100000) (k : Fin 128) :
    (Host.scatterAdd (F := Ideal) (φ := .f32) scatter_S100000x128_S600000x1_S600000x128_1_0_0_1 (val_main_v16 (F := Ideal))
        (val_main_v17 (F := Ideal) x1) upd (ix2 n k) : EReal) =
      0 + ∑ e ∈ Finset.univ.filter (fun e : Fin 600000 => (val_main_v17 (F := Ideal) x1 (ix2 e 0)).toInt = (n.val : Int)),
        upd (ix2 e k) := by
  unfold Host.scatterAdd
  rw [Ideal.hostScatterAdd_def, rows_record, hostScatterAdd_rows_apply, zero16]

/-- A rank-1 scatter-add from the zeros, at n: the sum, over the edges whose index is n, of the update's element e. -/
theorem cells_scatter_at (upd : (⟨S600000, .f32⟩ : BufTy).Contents (Elt Ideal)) (n : Fin 100000) :
    (Host.scatterAdd (F := Ideal) (φ := .f32) scatter_S100000_S600000x1_S600000_n_0_0_1 (val_main_v19 (F := Ideal))
        (val_main_v17 (F := Ideal) x1) upd (ix1 n) : EReal) =
      0 + ∑ e ∈ Finset.univ.filter (fun e : Fin 600000 => (val_main_v17 (F := Ideal) x1 (ix2 e 0)).toInt = (n.val : Int)),
        upd (ix1 e) := by
  unfold Host.scatterAdd
  rw [Ideal.hostScatterAdd_def, cells_record, hostScatterAdd_cells_apply, zero19]

/-- All gathered rows summed per node, at (n, k). -/
theorem sumsAll_at (n : Fin 100000) (k : Fin 128) :
    (sumsAll x0 x1 (ix2 n k) : EReal) =
      0 + ∑ e ∈ Finset.univ.filter (fun e : Fin 600000 => (val_main_v17 (F := Ideal) x1 (ix2 e 0)).toInt = (n.val : Int)),
        val_main_v12 (F := Ideal) x0 x1 (ix2 e k) := by
  unfold sumsAll
  rw [rows_scatter_at]

/-- The reference's masked sums, at (n, k). -/
theorem v18_at (n : Fin 100000) (k : Fin 128) :
    (val_main_v18 (F := Ideal) x0 x1 (ix2 n k) : EReal) =
      0 + ∑ e ∈ Finset.univ.filter (fun e : Fin 600000 => (val_main_v17 (F := Ideal) x1 (ix2 e 0)).toInt = (n.val : Int)),
        val_main_v12 (F := Ideal) x0 x1 (ix2 e k) * val_main_v5 (F := Ideal) x1 (ix1 e) := by
  unfold val_main_v18
  rw [rows_scatter_at]
  refine congrArg (fun t => (0 : EReal) + t) (Finset.sum_congr rfl fun e _ => ?_)
  rw [val_main_v15_apply, validB_at]
  rfl

/-- The number of edges per node, at n. -/
theorem degree_at (n : Fin 100000) :
    (degree x1 (ix1 n) : EReal) =
      0 + ∑ e ∈ Finset.univ.filter (fun e : Fin 600000 => (val_main_v17 (F := Ideal) x1 (ix2 e 0)).toInt = (n.val : Int)),
        (1 : EReal) := by
  unfold degree
  rw [v20_eq, cells_scatter_at]
  exact congrArg (fun t => (0 : EReal) + t) (Finset.sum_congr rfl fun e _ => ones_at e)

/-- The number of self-loops per node, at n. -/
theorem selfCount_at (n : Fin 100000) :
    (selfCount x1 (ix1 n) : EReal) =
      0 + ∑ e ∈ Finset.univ.filter (fun e : Fin 600000 => (val_main_v17 (F := Ideal) x1 (ix2 e 0)).toInt = (n.val : Int)),
        selfLoop x1 (ix1 e) := by
  unfold selfCount
  rw [v20_eq, cells_scatter_at]

/-- The reference's masked counts, at n. -/
theorem v21_at (n : Fin 100000) :
    (val_main_v21 (F := Ideal) x1 (ix1 n) : EReal) =
      0 + ∑ e ∈ Finset.univ.filter (fun e : Fin 600000 => (val_main_v17 (F := Ideal) x1 (ix2 e 0)).toInt = (n.val : Int)),
        val_main_v5 (F := Ideal) x1 (ix1 e) := by
  unfold val_main_v21
  rw [v20_eq, cells_scatter_at]

/-! ## The corrected arrays read at a node -/

/-- The corrected sums at (n, k): all rows, less (self-loops at n) · x[n, k]. -/
theorem kSums_at (n : Fin 100000) (k : Fin 128) :
    (kSums x0 x1 (ix2 n k) : EReal) = sumsAll x0 x1 (ix2 n k) - selfCount x1 (ix1 n) * x0 (ix2 n k) := by
  unfold kSums
  rw [subf_apply, mulf_apply, bcast_rows_at, bcast_col_at]

/-- The corrected counts at (n, 0): the degree less the self-loops. -/
theorem kCounts_at (n : Fin 100000) :
    (kCounts x1 (ix2 n 0) : EReal) = degree x1 (ix1 n) - selfCount x1 (ix1 n) := by
  unfold kCounts
  rw [bcast_col_at, subf_apply]

end Stages

/-! ## The join -/

/-- THE TWO MEANS AGREE: on finite node features, the corrected sums times the reciprocal of the corrected counts
    (clamped to at least one) are the masked sums divided by the masked counts (clamped to at least one). -/
theorem join (x0 : (⟨S100000x128, .f32⟩ : BufTy).Contents (Elt Ideal)) (x1 : (⟨S2x600000, .i32⟩ : BufTy).Contents (Elt Ideal))
    (hfin : ∀ i, ∃ r : ℝ, x0 i = (r : EReal)) :
    Cert.Spec.meanMul (N := 100000) (kSums x0 x1) (kCounts x1)
      = Cert.Spec.meanDiv (N := 100000) (val_main_v18 (F := Ideal) x0 x1) (val_main_v21 (F := Ideal) x1) := by
  funext i
  obtain ⟨n, k, rfl⟩ : ∃ (n : Fin 100000) (k : Fin 128), i = ix2 n k := ⟨_, _, eq_ix2 i⟩
  obtain ⟨r, hr⟩ := hfin (ix2 n k)
  show (kSums x0 x1 (ix2 n k) : EReal) * Ideal.div Cert.Spec.one (max (kCounts x1 (ix2 n 0)) Cert.Spec.one)
    = Ideal.div (val_main_v18 (F := Ideal) x0 x1 (ix2 n k)) (max (val_main_v21 (F := Ideal) x1 (ix1 n)) Cert.Spec.one)
  rw [one_eq, kSums_at, kCounts_at, sumsAll_at, selfCount_at, degree_at, v18_at, v21_at, hr]
  exact Cert.MeanLaw.mean_law
    (fun e : Fin 600000 => (val_main_v17 (F := Ideal) x1 (ix2 e 0)).toInt = (n.val : Int))
    (fun e : Fin 600000 => val_main_v1 (F := Ideal) x1 (ix1 e) = val_main_v3 (F := Ideal) x1 (ix1 e))
    (fun e => val_main_v12 (F := Ideal) x0 x1 (ix2 e k)) (fun e => selfLoop x1 (ix1 e))
    (fun e => val_main_v5 (F := Ideal) x1 (ix1 e)) r
    (fun e hP hL => (gather_self x0 x1 e k n ((congrArg BitVec.toInt (idx_at x1 e)).symm.trans hP) hL).trans hr)
    (fun e => selfLoop_at x1 e) (fun e => valid_at x1 e)

end Cert.Join

end
-- ==== Proof.FiniteInputs.lean ====
/-
  What the precondition says of the node features.

  The precondition is the conjunction of three tests, one per floating-point argument, each saying that every entry's
  absolute value is strictly below plus infinity. An extended real whose absolute value max x (-x) is below the top
  element is neither the top nor the bottom element, hence a real number. Only the first conjunct, about the node
  features, is read here.
-/
import proofs.«152024_j6871947673678_2_alg».proof.Pre_finite_inputs
import proofs.«152024_j6871947673678_2_alg».proof.Proof.Gen.Pre_finite_inputs
import Idealize.ShloMosaic.Lib.ReduceAll
import Idealize.ShloMosaic.Lib.ValueIdx

noncomputable section

namespace Cert.FiniteInputs

open Idealize.ShloMosaic Cert.Pre_finite_inputs

/-- The rank-0 shape has a single index. -/
instance : Subsingleton S_.Idx := ⟨fun a b => funext fun d => d.elim0⟩

/-- A strict comparison of extended reals that came out true holds. -/
theorem lt_of_cmp_olt {x y : EReal} (h : Ideal.cmp .olt x y = 1#1) : x < y := by
  by_contra hn
  simp [Ideal.cmp, hn] at h

/-- The single-precision word of plus infinity is the top element. -/
theorem ofBits_inf_f32 : Ideal.ofBits .f32 0x7F800000#32 = ⊤ := by simp [Ideal.ofBits, Ideal.ieee]

/-- An extended real whose absolute value is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- Under the precondition every entry of the node features is a real number. -/
theorem arg0_real [Cert.Pre_finite_inputs.Facts]
    (a0 : (⟨S100000x128, .f32⟩ : BufTy).Contents (Elt Ideal)) (a1 : (⟨S2x600000, .i32⟩ : BufTy).Contents (Elt Ideal))
    (a2 : (⟨S256x256, .f32⟩ : BufTy).Contents (Elt Ideal)) (a3 : (⟨S1x256, .f32⟩ : BufTy).Contents (Elt Ideal))
    (h : Cert.Pre_finite_inputs.fn (F := Ideal) a0 a1 a2 a3 = (fun _ => 1#1)) :
    ∀ i, ∃ r : ℝ, a0 i = (r : EReal) := by
  intro i
  have h0 := congrFun h ValueIdx.ix0
  dsimp only [Cert.Pre_finite_inputs.fn] at h0
  -- the outer conjunction, then the inner one: the first test came out true
  have h1 := (IntOp.andi_eq_one.1 h0).1
  have h2 := (IntOp.andi_eq_one.1 h1).1
  -- the test is a conjunction over all entries: the entry at i came out true
  have h3 := Host.reduce_andi_all _ _ _ _ _ h2 i
  -- the entry's test: its absolute value against the word of plus infinity
  have h4 : Ideal.cmp .olt (max (a0 i) (-(a0 i))) (Ideal.ofBits .f32 0x7F800000#32) = 1#1 := h3
  rw [ofBits_inf_f32] at h4
  exact real_of_abs_lt_top (a0 i) (lt_of_cmp_olt h4)

end Cert.FiniteInputs

end
-- ==== Proof.lean ====
/-
  The certificate of a graph layer: for each node, the mean of its in-neighbours' features over the edges that are not
  self-loops, set beside the node's own features, a linear layer, and the row divided by its Euclidean norm (floored).

  Both programs are read at the extended reals. The reference masks the self-loop edges before it sums and counts per node,
  and divides the sums by the clamped counts. The kernel's program sums and counts ALL edges per node, subtracts the node's
  own row once per self-loop and the self-loops from the degree, and multiplies by the reciprocal of the clamped count; the
  rest (the two halves side by side, the matrix product, the bias, the division by the clamped norm) it computes block by
  block of 2000 rows. The two agree because a self-loop at a node gathers that node's own row, which is a real number
  under the precondition, so subtracting it undoes adding it; the mean as a product with a reciprocal is the mean as a
  quotient for a count of at least one; and a row of the result reads only the same row of its inputs, so 50 blocks of
  2000 rows tile the 100000 rows of one whole-array function.

  `Spec` states that function; `KernelRow` reads the kernel body's stored value as it on a block; `KernelFinal` goes from the
  blocks to the array; `KernelHost` reads the arrays the kernel's region finds as functions of the arguments; `RefHead` reads
  the reference's result as the same function of its masked sums and counts; `Join` (over `JoinDefs`, `JoinEdges`, the scatter
  sums of `LibRowScatter` and the law `MeanLaw`) equates the corrected mean with the masked one; `FiniteInputs` gives the
  node features as real numbers from the precondition. The frames of the two kernel programs and the reference's run are
  the generated ones; the idealization rewrote no operation, so nothing is owed for it.
-/
import proofs.«152024_j6871947673678_2_alg».proof.Defs
import proofs.«152024_j6871947673678_2_alg».proof.Proof.Gen.Kernel
import proofs.«152024_j6871947673678_2_alg».proof.Proof.Gen.Kernel.Skeleton
import proofs.«152024_j6871947673678_2_alg».proof.Proof.Gen.Kernel.Launch
import proofs.«152024_j6871947673678_2_alg».proof.Proof.Gen.Kernel.Points
import proofs.«152024_j6871947673678_2_alg».proof.Proof.Gen.Kernel.Frame
import proofs.«152024_j6871947673678_2_alg».proof.Proof.Gen.KernelIdeal
import proofs.«152024_j6871947673678_2_alg».proof.Proof.Gen.KernelIdeal.Skeleton
import proofs.«152024_j6871947673678_2_alg».proof.Proof.Gen.KernelIdeal.Launch
import proofs.«152024_j6871947673678_2_alg».proof.Proof.Gen.KernelIdeal.Points
import proofs.«152024_j6871947673678_2_alg».proof.Proof.Gen.KernelIdeal.Frame
import proofs.«152024_j6871947673678_2_alg».proof.Proof.Gen.ReferenceIdeal
import proofs.«152024_j6871947673678_2_alg».proof.Proof.Gen.Pre_finite_inputs
import proofs.«152024_j6871947673678_2_alg».proof.Proof.Gen.KernelIdeal.Value
import proofs.«152024_j6871947673678_2_alg».proof.Proof.Gen.ReferenceIdeal.Run
import proofs.«152024_j6871947673678_2_alg».proof.Proof.Gen.ReferenceIdeal.Read
import proofs.«152024_j6871947673678_2_alg».proof.Proof.KernelHost
import proofs.«152024_j6871947673678_2_alg».proof.Proof.RefHead
import proofs.«152024_j6871947673678_2_alg».proof.Proof.Join
import proofs.«152024_j6871947673678_2_alg».proof.Proof.FiniteInputs
import Idealize.ShloMosaic.Adequacy
import Idealize.ShloMosaic.Init

noncomputable section

namespace Cert.Proof

open Idealize.ShloMosaic Idealize.SL.Sem

/-- The word-level kernel program runs and leaves its arguments as they were: the generated frame. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and leaves its arguments as they were: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the node features finite, both programs end with the same array: the
    kernel's is the specification's result for the corrected mean, the reference's for the masked mean, and the two means
    are equal. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v35 m' c = Cert.KernelIdeal.Final.result m c
  rw [Cert.ReferenceIdeal.Read.val_main_v35_eq, Cert.ReferenceIdeal.RefValue.ref_eq_head,
    (hagree c).1, (hagree c).2.1, (hagree c).2.2.1, (hagree c).2.2.2,
    Cert.KernelIdeal.HostPart.result_eq m c,
    Cert.Join.join _ _ (Cert.FiniteInputs.arg0_real _ _ _ _ (hpre c))]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
